-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x24 : Shape := ⟨2, ![128, 24]⟩
abbrev S24 : Shape := ⟨1, ![24]⟩
abbrev S24x128 : Shape := ⟨2, ![24, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x24 : S_.BroadcastsInDim S128x24 (![] : Fin 0 → Fin S128x24.rank)
  reducesTo_S128x24_S_d0_1 : S128x24.ReducesTo [0, 1] S_
  bcast_S_S24 : S_.BroadcastsInDim S24 (![] : Fin 0 → Fin S24.rank)
  reducesTo_S24_S_d0 : S24.ReducesTo [0] S_
  bcast_S_S24x128 : S_.BroadcastsInDim S24x128 (![] : Fin 0 → Fin S24x128.rank)
  reducesTo_S24x128_S_d0_1 : S24x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S24x128 .f32) (main_arg5 : FVec F S128 .f32) (main_v13 : IVec S_ 1) (main_v16 : IVec S24 1) : IVec S_ 1 :=
  let main_c_5 : IVec S_ 1 := constantI S_ 1 1#1
  let main_v17 : IVec S_ 1 := (fun x v => Host.reduce IntOp.andi x v reducesTo_S24_S_d0 h_S_) main_v16 main_c_5
  let main_v18 : IVec S_ 1 := andi main_v13 main_v17
  let main_v19 : FVec F S24x128 .f32 := Host.absf main_arg4
  let main_cst_6 : FVec F S_ .f32 := constant S_ .f32 0x7F800000#32
  let main_v20 : FVec F S24x128 .f32 := broadcastInDim S24x128 ![] bcast_S_S24x128 main_cst_6
  let main_v21 : IVec S24x128 1 := cmpf .olt main_v19 main_v20
  let main_c_7 : IVec S_ 1 := constantI S_ 1 1#1
  let main_v22 : IVec S_ 1 := (fun x v => Host.reduce IntOp.andi x v reducesTo_S24x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x24 .f32) (main_arg3 : FVec F S24 .f32) (main_arg4 : FVec F S24x128 .f32) (main_arg5 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x24 .f32 := Host.absf main_arg2
  let main_cst_2 : FVec F S_ .f32 := constant S_ .f32 0x7F800000#32
  let main_v10 : FVec F S128x24 .f32 := broadcastInDim S128x24 ![] bcast_S_S128x24 main_cst_2
  let main_v11 : IVec S128x24 1 := cmpf .olt main_v9 main_v10
  let main_c_3 : IVec S_ 1 := constantI S_ 1 1#1
  let main_v12 : IVec S_ 1 := (fun x v => Host.reduce IntOp.andi x v reducesTo_S128x24_S_d0_1 h_S_) main_v11 main_c_3
  let main_v13 : IVec S_ 1 := andi main_v8 main_v12
  let main_v14 : FVec F S24 .f32 := Host.absf main_arg3
  let main_cst_4 : FVec F S_ .f32 := constant S_ .f32 0x7F800000#32
  let main_v15 : FVec F S24 .f32 := broadcastInDim S24 ![] bcast_S_S24 main_cst_4
  let main_v16 : IVec S24 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x24 : Shape := ⟨2, ![128, 24]⟩
abbrev S24 : Shape := ⟨1, ![24]⟩
abbrev S24x128 : Shape := ⟨2, ![24, 128]⟩
abbrev S128 : Shape := ⟨1, ![128]⟩
abbrev S1x24 : Shape := ⟨2, ![1, 24]⟩
abbrev S1x128 : Shape := ⟨2, ![1, 128]⟩
abbrev S200x10000 : Shape := ⟨2, ![200, 10000]⟩
abbrev S400x128 : Shape := ⟨2, ![400, 128]⟩
abbrev S10000x24 : Shape := ⟨2, ![10000, 24]⟩
abbrev S200x24 : Shape := ⟨2, ![200, 24]⟩
abbrev S200x128 : Shape := ⟨2, ![200, 128]⟩

abbrev nBuf : Space → Nat
  | .hbm => 9
  | .vmem => 12
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x24, .f32⟩
  | .hbm, ⟨3, _⟩ => ⟨S24, .f32⟩
  | .hbm, ⟨4, _⟩ => ⟨S24x128, .f32⟩
  | .hbm, ⟨5, _⟩ => ⟨S128, .f32⟩
  | .hbm, ⟨6, _⟩ => ⟨S1x24, .f32⟩
  | .hbm, ⟨7, _⟩ => ⟨S1x128, .f32⟩
  | .hbm, ⟨8, _⟩ => ⟨S10000x128, .f32⟩
  | .local _ .vmem, ⟨0, _⟩ => ⟨S10000x128, .f32⟩
  | .local _ .vmem, ⟨1, _⟩ => ⟨S200x10000, .f32⟩
  | .local _ .vmem, ⟨2, _⟩ => ⟨S200x10000, .f32⟩
  | .local _ .vmem, ⟨3, _⟩ => ⟨S200x10000, .f32⟩
  | .local _ .vmem, ⟨4, _⟩ => ⟨S200x10000, .f32⟩
  | .local _ .vmem, ⟨5, _⟩ => ⟨S128x24, .f32⟩
  | .local _ .vmem, ⟨6, _⟩ => ⟨S1x24, .f32⟩
  | .local _ .vmem, ⟨7, _⟩ => ⟨S24x128, .f32⟩
  | .local _ .vmem, ⟨8, _⟩ => ⟨S1x128, .f32⟩
  | .local _ .vmem, ⟨9, _⟩ => ⟨S400x128, .f32⟩
  | .local _ .vmem, ⟨10, _⟩ => ⟨S400x128, .f32⟩
  | .local _ .vmem, ⟨11, _⟩ => ⟨S10000x24, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S200x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x24 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x24 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S24x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S400x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S24_S1x24 : S24.ShapeCasts S1x24
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x24_S128x24_0_0 : ∀ a, (![0, 0] : Fin 2 → Nat) a + S128x24.size a ≤ S128x24.size a
  h_S128x24 : 0 < S128x24.numel
  inb_S10000x24_S10000x24_0_0 : ∀ a, (![0, 0] : Fin 2 → Nat) a + S10000x24.size a ≤ S10000x24.size a
  h_S10000x24 : 0 < S10000x24.numel
  shapeCasts_S10000x24_S10000x24 : S10000x24.ShapeCasts S10000x24
  inb_S200x10000_S200x10000_0_0 : ∀ a, (![0, 0] : Fin 2 → Nat) a + S200x10000.size a ≤ S200x10000.size a
  h_S200x10000 : 0 < S200x10000.numel
  inb_S1x24_S1x24_0_0 : ∀ a, (![0, 0] : Fin 2 → Nat) a + S1x24.size a ≤ S1x24.size a
  h_S1x24 : 0 < S1x24.numel
  shapeCasts_S1x24_S1x24 : S1x24.ShapeCasts S1x24
  broadcasts_S1x24_S200x24 : S1x24.Broadcasts S200x24
  inb_S24x128_S24x128_0_0 : ∀ a, (![0, 0] : Fin 2 → Nat) a + S24x128.size a ≤ S24x128.size a
  h_S24x128 : 0 < S24x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S200x128 : S1x128.Broadcasts S200x128
  inb_S400x128_S200x128_0_0 : ∀ a, (![0, 0] : Fin 2 → Nat) a + S200x128.size a ≤ S400x128.size a
  h_S200x128 : 0 < S200x128.numel
  inb_S400x128_S200x128_200_0 : ∀ a, (![200, 0] : Fin 2 → Nat) a + S200x128.size a ≤ S400x128.size a
  dot_S10000x128_S128x24_S10000x24_1_0_0_1_n_n_wf : DotDims.WF S10000x128 S128x24 S10000x24 [1] [0] [0] [1] [] []
  dot_S200x10000_S10000x24_S200x24_1_0_0_1_n_n_wf : DotDims.WF S200x10000 S10000x24 S200x24 [1] [0] [0] [1] [] []
  dot_S200x24_S24x128_S200x128_1_0_0_1_n_n_wf : DotDims.WF S200x24 S24x128 S200x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x10000.size a ≤ S10000x10000.size a
  hwx0_2 : ∀ i : grid0.Coords, EltTy.bits .f32 = 32 ∨ (Rect.block (s := S10000x10000) S200x10000.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x24.size a ≤ S128x24.size a
  hwx0_3 : ∀ i : grid0.Coords, EltTy.bits .f32 = 32 ∨ (Rect.block (s := S128x24) S128x24.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x24.size a ≤ S1x24.size a
  hwx0_4 : ∀ i : grid0.Coords, EltTy.bits .f32 = 32 ∨ (Rect.block (s := S1x24) S1x24.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S24x128.size a ≤ S24x128.size a
  hwx0_5 : ∀ i : grid0.Coords, EltTy.bits .f32 = 32 ∨ (Rect.block (s := S24x128) S24x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S400x128.size a ≤ S10000x128.size a
  hwx0_7 : ∀ i : grid0.Coords, EltTy.bits .f32 = 32 ∨ (Rect.block (s := S10000x128) S400x128.size (cc0_transform_7 i) (hinb0_7 i)).WholeWords (EltTy.packing .f32)

variable [Facts₀]

def dot_S10000x128_S128x24_S10000x24_1_0_0_1_n_n : DotDims S10000x128 S128x24 S10000x24 where
  lhsContracting := [1]
  rhsContracting := [0]
  lhsNonContracting := [0]
  rhsNonContracting := [1]
  lhsBatch := []
  rhsBatch := []
  wf := dot_S10000x128_S128x24_S10000x24_1_0_0_1_n_n_wf
def dot_S200x10000_S10000x24_S200x24_1_0_0_1_n_n : DotDims S200x10000 S10000x24 S200x24 where
  lhsContracting := [1]
  rhsContracting := [0]
  lhsNonContracting := [0]
  rhsNonContracting := [1]
  lhsBatch := []
  rhsBatch := []
  wf := dot_S200x10000_S10000x24_S200x24_1_0_0_1_n_n_wf
def dot_S200x24_S24x128_S200x128_1_0_0_1_n_n : DotDims S200x24 S24x128 S200x128 where
  lhsContracting := [1]
  rhsContracting := [0]
  lhsNonContracting := [0]
  rhsNonContracting := [1]
  lhsBatch := []
  rhsBatch := []
  wf := dot_S200x24_S24x128_S200x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S200x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x24.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x24.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S24x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S400x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x24 : Shape := ⟨2, ![128, 24]⟩
abbrev S24 : Shape := ⟨1, ![24]⟩
abbrev S24x128 : Shape := ⟨2, ![24, 128]⟩
abbrev S128 : Shape := ⟨1, ![128]⟩
abbrev S10000x24 : Shape := ⟨2, ![10000, 24]⟩
abbrev S1x24 : Shape := ⟨2, ![1, 24]⟩
abbrev S_ : Shape := ⟨0, ![]⟩
abbrev S1x128 : Shape := ⟨2, ![1, 128]⟩

abbrev nBuf : Space → Nat
  | .hbm => 24
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x24, .f32⟩
  | .hbm, ⟨3, _⟩ => ⟨S24, .f32⟩
  | .hbm, ⟨4, _⟩ => ⟨S24x128, .f32⟩
  | .hbm, ⟨5, _⟩ => ⟨S128, .f32⟩
  | .hbm, ⟨6, _⟩ => ⟨S10000x24, .f32⟩
  | .hbm, ⟨7, _⟩ => ⟨S10000x24, .f32⟩
  | .hbm, ⟨8, _⟩ => ⟨S1x24, .f32⟩
  | .hbm, ⟨9, _⟩ => ⟨S10000x24, .f32⟩
  | .hbm, ⟨10, _⟩ => ⟨S10000x24, .f32⟩
  | .hbm, ⟨11, _⟩ => ⟨S_, .f32⟩
  | .hbm, ⟨12, _⟩ => ⟨S_, .f32⟩
  | .hbm, ⟨13, _⟩ => ⟨S10000x24, .f32⟩
  | .hbm, ⟨14, _⟩ => ⟨S10000x24, .i1⟩
  | .hbm, ⟨15, _⟩ => ⟨S_, .f32⟩
  | .hbm, ⟨16, _⟩ => ⟨S10000x24, .f32⟩
  | .hbm, ⟨17, _⟩ => ⟨S10000x24, .f32⟩
  | .hbm, ⟨18, _⟩ => ⟨S10000x24, .f32⟩
  | .hbm, ⟨19, _⟩ => ⟨S10000x128, .f32⟩
  | .hbm, ⟨20, _⟩ => ⟨S1x128, .f32⟩
  | .hbm, ⟨21, _⟩ => ⟨S10000x128, .f32⟩
  | .hbm, ⟨22, _⟩ => ⟨S10000x128, .f32⟩
  | .hbm, ⟨23, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_call0_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩

abbrev nD : Nat := 1
abbrev τ : Topo := Topo.v7x

variable {F : FTy → Type} [FloatOps F]

class Facts₀ : Prop where
  bcast_S24_S1x24_1 : S24.BroadcastsInDim S1x24 (![1] : Fin 1 → Fin S1x24.rank)
  bcast_S1x24_S10000x24_0_1 : S1x24.BroadcastsInDim S10000x24 (![0, 1] : Fin 2 → Fin S10000x24.rank)
  bcast_S_S10000x24 : S_.BroadcastsInDim S10000x24 (![] : Fin 0 → Fin S10000x24.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  dot_S10000x128_S128x24_S10000x24_1_0_0_1_n_n_wf : DotDims.WF S10000x128 S128x24 S10000x24 [1] [0] [0] [1] [] []
  dot_S10000x10000_S10000x24_S10000x24_1_0_0_1_n_n_wf : DotDims.WF S10000x10000 S10000x24 S10000x24 [1] [0] [0] [1] [] []
  dot_S10000x24_S24x128_S10000x128_1_0_0_1_n_n_wf : DotDims.WF S10000x24 S24x128 S10000x128 [1] [0] [0] [1] [] []

variable [Facts₀]

def dot_S10000x128_S128x24_S10000x24_1_0_0_1_n_n : DotDims S10000x128 S128x24 S10000x24 where
  lhsContracting := [1]
  rhsContracting := [0]
  lhsNonContracting := [0]
  rhsNonContracting := [1]
  lhsBatch := []
  rhsBatch := []
  wf := dot_S10000x128_S128x24_S10000x24_1_0_0_1_n_n_wf
def dot_S10000x10000_S10000x24_S10000x24_1_0_0_1_n_n : DotDims S10000x10000 S10000x24 S10000x24 where
  lhsContracting := [1]
  rhsContracting := [0]
  lhsNonContracting := [0]
  rhsNonContracting := [1]
  lhsBatch := []
  rhsBatch := []
  wf := dot_S10000x10000_S10000x24_S10000x24_1_0_0_1_n_n_wf
def dot_S10000x24_S24x128_S10000x128_1_0_0_1_n_n : DotDims S10000x24 S24x128 S10000x128 where
  lhsContracting := [1]
  rhsContracting := [0]
  lhsNonContracting := [0]
  rhsNonContracting := [1]
  lhsBatch := []
  rhsBatch := []
  wf := dot_S10000x24_S24x128_S10000x128_1_0_0_1_n_n_wf

class Facts : Prop extends Facts₀ where

variable [Facts]
-- ==== Proof.BitsRuns.lean ====
/-
  The graph-convolution kernel's body, run at one grid point on whole staging buffers.

  The launch has 25 grid points. Point t is handed: the whole feature matrix x, two 200-row blocks of adj (rows
  400 t … 400 t + 199 and 400 t + 200 … 400 t + 399; both windows read the one array adj), W1, the bias rows b1
  and b2 laid as [1, 24] and [1, 128], W2, the 400-row output block, and a [10000, 24] scratch that lives across
  points. At the first point the body stores x · W1 into the scratch; at every point it reads the scratch and
  stores the two 200-row halves of the output block. So there are two runs: the first point (the scratch handed in
  at anything, handed back with its one store written) and a later point (the scratch handed in at known contents
  and handed back untouched). In both, the seven inputs come back as they were and the output buffer comes back
  with its two stores written; the stored pieces are whatever the symbolic run finds.
-/
import proofs.«168579_g5626407157816_cont_9to1c4b_88_12_alg».proof.Proof.Gen.Kernel.Launch
import proofs.«168579_g5626407157816_cont_9to1c4b_88_12_alg».proof.Proof.Gen.Kernel.Skeleton
import proofs.«168579_g5626407157816_cont_9to1c4b_88_12_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core c's buffers when the region is entered: after the two reshapes of the biases. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program is the two reshapes, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Neither reshape before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))
/-- Neither reshape before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))
/-- Neither reshape before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    repeat' apply And.intro
    all_goals exact StableHlo.devRef_ne_of_ne (by decide)))
/-- Neither reshape before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    repeat' apply And.intro
    all_goals exact StableHlo.devRef_ne_of_ne (by decide)))
/-- Neither reshape before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.reshape_writes, Finset.mem_singleton]
    repeat' apply And.intro
    all_goals exact StableHlo.devRef_ne_of_ne (by decide)))
/-- Neither reshape before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.reshape_writes, Finset.mem_singleton]
    repeat' apply And.intro
    all_goals exact StableHlo.devRef_ne_of_ne (by decide)))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The body's branch -/

/-- The body's one branch: "this is the first grid point", as the body computes it from the coordinate. -/
abbrev cond0 (i : grid0.Coords) : Prop := (Scalar.cmpi .ne (Scalar.extui (Scalar.cmpi .eq (BitVec.ofNat 32 (i 0).val) 0#32)) 0#32) = 1#1

/-- It holds at point 0 and at no other of the 25 points. -/
theorem hcond0 : ∀ t : Fin cfg0.N, cond0 (grid0.coords t) ↔ t.val = 0 :=
  (by decide +kernel : ∀ t : Fin grid0.N, cond0 (grid0.coords t) ↔ t.val = 0)

/-- The output window is live at every point. -/
theorem liveAt7 : ∀ t : Fin cfg0.N, cfg0.idle 7 (grid0.coords t) = false := by decide +kernel

/-! ## The staging memrefs at a point -/

abbrev ms0 (t : Fin cfg0.N) := win0_0.stage (cfg0.slots t 0)
abbrev hs0 (t : Fin cfg0.N) : (ms0 t).IsWhole := hstage0_0 ((cfg0.slots t 0).cast nbuf0_0)
abbrev ms1 (t : Fin cfg0.N) := win0_1.stage (cfg0.slots t 1)
abbrev hs1 (t : Fin cfg0.N) : (ms1 t).IsWhole := hstage0_1 ((cfg0.slots t 1).cast nbuf0_1)
abbrev ms2 (t : Fin cfg0.N) := win0_2.stage (cfg0.slots t 2)
abbrev hs2 (t : Fin cfg0.N) : (ms2 t).IsWhole := hstage0_2 ((cfg0.slots t 2).cast nbuf0_2)
abbrev ms3 (t : Fin cfg0.N) := win0_3.stage (cfg0.slots t 3)
abbrev hs3 (t : Fin cfg0.N) : (ms3 t).IsWhole := hstage0_3 ((cfg0.slots t 3).cast nbuf0_3)
abbrev ms4 (t : Fin cfg0.N) := win0_4.stage (cfg0.slots t 4)
abbrev hs4 (t : Fin cfg0.N) : (ms4 t).IsWhole := hstage0_4 ((cfg0.slots t 4).cast nbuf0_4)
abbrev ms5 (t : Fin cfg0.N) := win0_5.stage (cfg0.slots t 5)
abbrev hs5 (t : Fin cfg0.N) : (ms5 t).IsWhole := hstage0_5 ((cfg0.slots t 5).cast nbuf0_5)
abbrev ms6 (t : Fin cfg0.N) := win0_6.stage (cfg0.slots t 6)
abbrev hs6 (t : Fin cfg0.N) : (ms6 t).IsWhole := hstage0_6 ((cfg0.slots t 6).cast nbuf0_6)
abbrev ms7 (t : Fin cfg0.N) := win0_7.stage (cfg0.slots t 7)
abbrev hs7 (t : Fin cfg0.N) : (ms7 t).IsWhole := hstage0_7 ((cfg0.slots t 7).cast nbuf0_7)
/-- The scratch the body keeps x · W1 in. -/
abbrev scM : Memref sig .tc .vmem S10000x24 .f32 := Memref.whole cc0_scratch0
/-- One staging buffer of the output window and the scratch as views, through which contents are stated. -/
abbrev VO : View sig .tc .vmem S400x128 .f32 := (Memref.whole cc0_stg7_0 : Memref sig .tc .vmem S400x128 .f32).view
abbrev VS : View sig .tc .vmem S10000x24 .f32 := scM.view

/-- The region's own invariant, with the scratch as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The two runs -/

set_option maxHeartbeats 4000000 in
/-- The body at the first point: the scratch comes back with x · W1 stored, the output buffer with its two halves
    stored. The pieces are found by the run. -/
noncomputable def runFirst (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x24 .f32) (harg4 : arg4.IsWhole) (arg5 : Memref sig .tc .vmem S1x24 .f32) (harg5 : arg5.IsWhole) (arg6 : Memref sig .tc .vmem S24x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x24 .f32) (harg9 : arg9.IsWhole) (hc : cond0 i)
    (x0 : Vec F S10000x128 .f32) (x1 : Vec F S200x10000 .f32) (x2 : Vec F S200x10000 .f32) (x3 : Vec F S128x24 .f32) (x4 : Vec F S1x24 .f32) (x5 : Vec F S24x128 .f32) (x6 : Vec F S1x128 .f32) :
    Σ' (L7 : List (View.Piece (Elt F) S400x128 .f32)), { LS : List (View.Piece (Elt F) S10000x24 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9) K } := by
  refine ⟨?_, ?_, fun E K => ?run⟩
  case run =>
    simp only [cc0__body_eq_skeleton]; unfold cc0__body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    iexists _; iexact H8

set_option maxHeartbeats 4000000 in
/-- The body at a later point: the scratch, handed in at contents xs, comes back untouched; the output buffer
    comes back with its two halves stored. -/
noncomputable def runLater (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x24 .f32) (harg4 : arg4.IsWhole) (arg5 : Memref sig .tc .vmem S1x24 .f32) (harg5 : arg5.IsWhole) (arg6 : Memref sig .tc .vmem S24x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x24 .f32) (harg9 : arg9.IsWhole) (hc : ¬cond0 i)
    (x0 : Vec F S10000x128 .f32) (x1 : Vec F S200x10000 .f32) (x2 : Vec F S200x10000 .f32) (x3 : Vec F S128x24 .f32) (x4 : Vec F S1x24 .f32) (x5 : Vec F S24x128 .f32) (x6 : Vec F S1x128 .f32) (xs : Vec F S10000x24 .f32) :
    { L7 : List (View.Piece (Elt F) S400x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ owns (c : Thread nD τ) arg9 fullShare xs) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9) K } := by
  refine ⟨?_, fun E K => ?run⟩
  case run =>
    simp only [cc0__body_eq_skeleton]; unfold cc0__body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    iexists _; isplitr; · ipureintro; exact harg9.read_unread _
    iexact H8

end Cert.Kernel.Hand

end
-- ==== Proof.BitsFrame.lean ====
/-
  The graph-convolution kernel's launch: what every grid point leaves, and the run of the whole program.

  After the first point the scratch holds x · W1 and no later point stores into it, so the invariant carried from
  point to point is: before point 0 the scratch at anything; afterwards the scratch at what the first point stored.
  Every point leaves the seven input buffers at their blocks and the output buffer at its two stored halves, which
  cover it. Two of the input windows read one array (the two 200-row halves of a 400-row stripe of adj): the
  array's points-to is split between them, half a share each; nothing else about the launch notices. The program's
  arguments end unchanged: four are arrays of input windows, never written back; the two bias vectors bypass the
  region.
-/
import proofs.«168579_g5626407157816_cont_9to1c4b_88_12_alg».proof.Proof.BitsRuns

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the stores cover -/

/-- The first point's two stores into the output buffer tile it. -/
theorem cover7First (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x24 .f32) (harg4 : arg4.IsWhole) (arg5 : Memref sig .tc .vmem S1x24 .f32) (harg5 : arg5.IsWhole) (arg6 : Memref sig .tc .vmem S24x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x24 .f32) (harg9 : arg9.IsWhole) (hc : cond0 i) (x0 : Vec F S10000x128 .f32) (x1 : Vec F S200x10000 .f32) (x2 : Vec F S200x10000 .f32) (x3 : Vec F S128x24 .f32) (x4 : Vec F S1x24 .f32) (x5 : Vec F S24x128 .f32) (x6 : Vec F S1x128 .f32) (y : S400x128.Idx) :
    ∃ pc ∈ (runFirst c i arg1 harg1 arg2 harg2 arg3 harg3 arg4 harg4 arg5 harg5 arg6 harg6 arg7 harg7 arg8 harg8 arg9 harg9 hc x0 x1 x2 x3 x4 x5 x6).1, y ∈ pc.1.set :=
  View.cover_of_tiledL (runFirst c i arg1 harg1 arg2 harg2 arg3 harg3 arg4 harg4 arg5 harg5 arg6 harg6 arg7 harg7 arg8 harg8 arg9 harg9 hc x0 x1 x2 x3 x4 x5 x6).1 S200x128.size (by sl_kernel_rfl) y

/-- The first point's store into the scratch covers it. -/
theorem scoverFirst (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x24 .f32) (harg4 : arg4.IsWhole) (arg5 : Memref sig .tc .vmem S1x24 .f32) (harg5 : arg5.IsWhole) (arg6 : Memref sig .tc .vmem S24x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x24 .f32) (harg9 : arg9.IsWhole) (hc : cond0 i) (x0 : Vec F S10000x128 .f32) (x1 : Vec F S200x10000 .f32) (x2 : Vec F S200x10000 .f32) (x3 : Vec F S128x24 .f32) (x4 : Vec F S1x24 .f32) (x5 : Vec F S24x128 .f32) (x6 : Vec F S1x128 .f32) (y : S10000x24.Idx) :
    ∃ pc ∈ (runFirst c i arg1 harg1 arg2 harg2 arg3 harg3 arg4 harg4 arg5 harg5 arg6 harg6 arg7 harg7 arg8 harg8 arg9 harg9 hc x0 x1 x2 x3 x4 x5 x6).2.1, y ∈ pc.1.set :=
  View.cover_of_tiledL (runFirst c i arg1 harg1 arg2 harg2 arg3 harg3 arg4 harg4 arg5 harg5 arg6 harg6 arg7 harg7 arg8 harg8 arg9 harg9 hc x0 x1 x2 x3 x4 x5 x6).2.1 S10000x24.size (by sl_kernel_rfl) y

/-- A later point's two stores into the output buffer tile it. -/
theorem cover7Later (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x24 .f32) (harg4 : arg4.IsWhole) (arg5 : Memref sig .tc .vmem S1x24 .f32) (harg5 : arg5.IsWhole) (arg6 : Memref sig .tc .vmem S24x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x24 .f32) (harg9 : arg9.IsWhole) (hc : ¬cond0 i) (x0 : Vec F S10000x128 .f32) (x1 : Vec F S200x10000 .f32) (x2 : Vec F S200x10000 .f32) (x3 : Vec F S128x24 .f32) (x4 : Vec F S1x24 .f32) (x5 : Vec F S24x128 .f32) (x6 : Vec F S1x128 .f32) (xs : Vec F S10000x24 .f32) (y : S400x128.Idx) :
    ∃ pc ∈ (runLater c i arg1 harg1 arg2 harg2 arg3 harg3 arg4 harg4 arg5 harg5 arg6 harg6 arg7 harg7 arg8 harg8 arg9 harg9 hc x0 x1 x2 x3 x4 x5 x6 xs).1, y ∈ pc.1.set :=
  View.cover_of_tiledL (runLater c i arg1 harg1 arg2 harg2 arg3 harg3 arg4 harg4 arg5 harg5 arg6 harg6 arg7 harg7 arg8 harg8 arg9 harg9 hc x0 x1 x2 x3 x4 x5 x6 xs).1 S200x128.size (by sl_kernel_rfl) y

/-- What the first point leaves in the output buffer: its pieces read back. -/
def outFirst (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x24 .f32) (harg4 : arg4.IsWhole) (arg5 : Memref sig .tc .vmem S1x24 .f32) (harg5 : arg5.IsWhole) (arg6 : Memref sig .tc .vmem S24x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x24 .f32) (harg9 : arg9.IsWhole) (hc : cond0 i) (x0 : Vec F S10000x128 .f32) (x1 : Vec F S200x10000 .f32) (x2 : Vec F S200x10000 .f32) (x3 : Vec F S128x24 .f32) (x4 : Vec F S1x24 .f32) (x5 : Vec F S24x128 .f32) (x6 : Vec F S1x128 .f32) : Vec F S400x128 .f32 :=
  VO.read (Elt F) (VO.writes (Elt F) VO.junk (runFirst c i arg1 harg1 arg2 harg2 arg3 harg3 arg4 harg4 arg5 harg5 arg6 harg6 arg7 harg7 arg8 harg8 arg9 harg9 hc x0 x1 x2 x3 x4 x5 x6).1)

/-- What the first point leaves in the scratch: its piece read back. -/
def scrFirst (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x24 .f32) (harg4 : arg4.IsWhole) (arg5 : Memref sig .tc .vmem S1x24 .f32) (harg5 : arg5.IsWhole) (arg6 : Memref sig .tc .vmem S24x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x24 .f32) (harg9 : arg9.IsWhole) (hc : cond0 i) (x0 : Vec F S10000x128 .f32) (x1 : Vec F S200x10000 .f32) (x2 : Vec F S200x10000 .f32) (x3 : Vec F S128x24 .f32) (x4 : Vec F S1x24 .f32) (x5 : Vec F S24x128 .f32) (x6 : Vec F S1x128 .f32) : Vec F S10000x24 .f32 :=
  VS.read (Elt F) (VS.writes (Elt F) VS.junk (runFirst c i arg1 harg1 arg2 harg2 arg3 harg3 arg4 harg4 arg5 harg5 arg6 harg6 arg7 harg7 arg8 harg8 arg9 harg9 hc x0 x1 x2 x3 x4 x5 x6).2.1)

/-- What a later point leaves in the output buffer. -/
def outLater (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x24 .f32) (harg4 : arg4.IsWhole) (arg5 : Memref sig .tc .vmem S1x24 .f32) (harg5 : arg5.IsWhole) (arg6 : Memref sig .tc .vmem S24x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x24 .f32) (harg9 : arg9.IsWhole) (hc : ¬cond0 i) (x0 : Vec F S10000x128 .f32) (x1 : Vec F S200x10000 .f32) (x2 : Vec F S200x10000 .f32) (x3 : Vec F S128x24 .f32) (x4 : Vec F S1x24 .f32) (x5 : Vec F S24x128 .f32) (x6 : Vec F S1x128 .f32) (xs : Vec F S10000x24 .f32) : Vec F S400x128 .f32 :=
  VO.read (Elt F) (VO.writes (Elt F) VO.junk (runLater c i arg1 harg1 arg2 harg2 arg3 harg3 arg4 harg4 arg5 harg5 arg6 harg6 arg7 harg7 arg8 harg8 arg9 harg9 hc x0 x1 x2 x3 x4 x5 x6 xs).1)

/-! ## Point by point -/

/-- The first grid point. -/
abbrev t0 : Fin cfg0.N := ⟨0, lt_of_lt_of_eq (Nat.succ_pos 24) N_0.symm⟩

/-- The scratch after every point: what the first point stored. -/
def scr (c : Dev nD) : Vec F S10000x24 .f32 :=
  scrFirst c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) scM (Memref.isWhole_whole _) ((hcond0 t0).mpr rfl) (iblk m c 0 t0) (iblk m c 1 t0) (iblk m c 2 t0) (iblk m c 3 t0) (iblk m c 4 t0) (iblk m c 5 t0) (iblk m c 6 t0)

/-- The output buffer after point t. -/
def out7 (c : Dev nD) (t : Fin cfg0.N) : Vec F S400x128 .f32 :=
  if h : t.val = 0 then outFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) ((hcond0 t).mpr h) (iblk m c 0 t) (iblk m c 1 t) (iblk m c 2 t) (iblk m c 3 t) (iblk m c 4 t) (iblk m c 5 t) (iblk m c 6 t)
  else outLater c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (fun hc => h ((hcond0 t).mp hc)) (iblk m c 0 t) (iblk m c 1 t) (iblk m c 2 t) (iblk m c 3 t) (iblk m c 4 t) (iblk m c 5 t) (iblk m c 6 t) (scr m c)

theorem out7_first (c : Dev nD) (t : Fin cfg0.N) (h : t.val = 0) :
    out7 m c t = outFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) ((hcond0 t).mpr h) (iblk m c 0 t) (iblk m c 1 t) (iblk m c 2 t) (iblk m c 3 t) (iblk m c 4 t) (iblk m c 5 t) (iblk m c 6 t) := dif_pos h

theorem out7_later (c : Dev nD) (t : Fin cfg0.N) (h : ¬t.val = 0) :
    out7 m c t = outLater c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (fun hc => h ((hcond0 t).mp hc)) (iblk m c 0 t) (iblk m c 1 t) (iblk m c 2 t) (iblk m c 3 t) (iblk m c 4 t) (iblk m c 5 t) (iblk m c 6 t) (scr m c) := dif_neg h

/-- The scoped buffers the pipeline does not stage: the scratch, owned at some contents. -/
theorem scoped_eq (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

/-- The invariant before position n: at first the scratch at anything, then at what the first point stored. -/
def PhiS (c : Dev nD) : ℕ → sProp 𝕄
  | 0 => Pipeline.scopedRest (Ix := Unit) (Name := ℕ) (U := UR sig nD τ) (Lvl := ℕ) (Val := Elt F) spec0 c
  | _ + 1 => owns (c : Thread nD τ) scM fullShare (scr m c)

theorem PhiS_zero (c : Dev nD) (n : ℕ) (hz : n = 0) :
    PhiS m c n = Pipeline.scopedRest (Ix := Unit) (Name := ℕ) (U := UR sig nD τ) (Lvl := ℕ) (Val := Elt F) spec0 c := by
  subst hz; rfl

theorem PhiS_pos (c : Dev nD) (n : ℕ) (hz : n ≠ 0) : PhiS m c n = owns (c : Thread nD τ) scM fullShare (scr m c) := by
  cases n with
  | zero => exact absurd rfl hz
  | succ n => rfl

/-! ## The proof data -/

/-- The proof data on core c: the arrays as the region finds them; after the body each input buffer at its block
    and the output buffer at its two halves; the two windows on adj at half a share each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 m c t
    | ⟨_ + 8, h⟩ => absurd h (Nat.not_lt.2 (Nat.le_add_left _ _))
  Φ t := PhiS m c t.val
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
    | ⟨7, _⟩ => fullShare
    | ⟨_ + 8, h⟩ => absurd h (Nat.not_lt.2 (Nat.le_add_left _ _))
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = out7 m c t := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
theorem liveAt4 : ∀ t : Fin cfg0.N, cfg0.idle 4 (grid0.coords t) = false := by decide +kernel
theorem liveAt5 : ∀ t : Fin cfg0.N, cfg0.idle 5 (grid0.coords t) = false := by decide +kernel
theorem liveAt6 : ∀ t : Fin cfg0.N, cfg0.idle 6 (grid0.coords t) = false := by decide +kernel

/-! ## The body obligation -/

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4800000 in
/-- The body at any point: the inputs' buffers hold their blocks; at the first point the scratch is handed in at
    anything and comes back at its store, at a later point it is handed in and comes back at that same contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl]
  rw [show (dats m 0 c).Φ t.succ = owns (c : Thread nD τ) scM fullShare (scr m c) from rfl]
  rw [show (dats m 0 c).leavesExact 0 t = owns (c : Thread nD τ) (ms0 t) fullShare ((dats m 0 c).after 0 t) from by
    unfold Dat.leavesExact; rw [liveAt0 t], after0]
  rw [show (dats m 0 c).leavesExact 1 t = owns (c : Thread nD τ) (ms1 t) fullShare ((dats m 0 c).after 1 t) from by
    unfold Dat.leavesExact; rw [liveAt1 t], after1]
  rw [show (dats m 0 c).leavesExact 2 t = owns (c : Thread nD τ) (ms2 t) fullShare ((dats m 0 c).after 2 t) from by
    unfold Dat.leavesExact; rw [liveAt2 t], after2]
  rw [show (dats m 0 c).leavesExact 3 t = owns (c : Thread nD τ) (ms3 t) fullShare ((dats m 0 c).after 3 t) from by
    unfold Dat.leavesExact; rw [liveAt3 t], after3]
  rw [show (dats m 0 c).leavesExact 4 t = owns (c : Thread nD τ) (ms4 t) fullShare ((dats m 0 c).after 4 t) from by
    unfold Dat.leavesExact; rw [liveAt4 t], after4]
  rw [show (dats m 0 c).leavesExact 5 t = owns (c : Thread nD τ) (ms5 t) fullShare ((dats m 0 c).after 5 t) from by
    unfold Dat.leavesExact; rw [liveAt5 t], after5]
  rw [show (dats m 0 c).leavesExact 6 t = owns (c : Thread nD τ) (ms6 t) fullShare ((dats m 0 c).after 6 t) from by
    unfold Dat.leavesExact; rw [liveAt6 t], after6]
  rw [show (dats m 0 c).leavesExact 7 t = owns (c : Thread nD τ) (ms7 t) fullShare ((dats m 0 c).after 7 t) from by
    unfold Dat.leavesExact; rw [liveAt7 t], after7]
  rw [Phi_castSucc]
  by_cases hz : t.val = 0
  · rw [out7_first m c t hz, PhiS_zero m c _ hz, scoped_eq]
    obtain rfl : t = t0 := Fin.ext hz
    unfold outFirst
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runFirst c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) scM (Memref.isWhole_whole _) ((hcond0 t0).mpr rfl) (iblk m c 0 t0) (iblk m c 1 t0) (iblk m c 2 t0) (iblk m c 3 t0) (iblk m c 4 t0) (iblk m c 5 t0) (iblk m c 6 t0)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, ⟨%e7, H7⟩, ⟨%es, HS⟩⟩
    isplitl [HS]
    · unfold scr scrFirst owns; iexists _; isplitr
      swap; · iexact HS
      ipureintro; exact View.read_writes_of_cover _ _ _ _ _ (scoverFirst c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) scM (Memref.isWhole_whole _) ((hcond0 t0).mpr rfl) (iblk m c 0 t0) (iblk m c 1 t0) (iblk m c 2 t0) (iblk m c 3 t0) (iblk m c 4 t0) (iblk m c 5 t0) (iblk m c 6 t0))
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (cover7First c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) scM (Memref.isWhole_whole _) ((hcond0 t0).mpr rfl) (iblk m c 0 t0) (iblk m c 1 t0) (iblk m c 2 t0) (iblk m c 3 t0) (iblk m c 4 t0) (iblk m c 5 t0) (iblk m c 6 t0))
  · rw [out7_later m c t hz, PhiS_pos m c _ hz]
    unfold outLater
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runLater c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (fun hc => hz ((hcond0 t).mp hc)) (iblk m c 0 t) (iblk m c 1 t) (iblk m c 2 t) (iblk m c 3 t) (iblk m c 4 t) (iblk m c 5 t) (iblk m c 6 t) (scr m c)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, ⟨%e7, H7⟩, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (cover7Later c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (fun hc => hz ((hcond0 t).mp hc)) (iblk m c 0 t) (iblk m c 1 t) (iblk m c 2 t) (iblk m c 3 t) (iblk m c 4 t) (iblk m c 5 t) (iblk m c 6 t) (scr m c))

/-- The library's body obligation, at every point. -/
theorem body_obligation (c : Dev nD) : BodyObligation (dats (F := F) m 0 c) (defs₀ (F := F)) Variants.none () Set.univ := fun t => by
  rw [bigSep_W0, bigSep_W0]
  exact sound_body m c t

/-- After any point but the first the invariant gives the scratch back at some contents. -/
theorem Phi_out (c : Dev nD) (t : Fin (cfg0.N + 1)) (ht : t.val ≠ 0) :
    (dats m 0 c).Φ t ⊢ (Pipeline.scopedRest (Ix := Unit) (Name := ℕ) (U := UR sig nD τ) (Lvl := ℕ) (Val := Elt F) spec0 c : sProp 𝕄) := by
  rw [show (dats m 0 c).Φ t = PhiS m c t.val from rfl, PhiS_pos m c _ ht, scoped_eq]
  iintro HS
  iexists _; iexact HS

/-! ## The run -/

set_option backward.isDefEq.respectTransparency.types false in
/-- Every weakly fair execution of the program terminates; every window's array ends at what the proof data
    computes, every other unscoped buffer as the region found it. The launch splits the shared array's points-to
    between its two windows (hs). -/
theorem run_main (hs : ∀ c, (Pipeline.arrBufs (Ix := Unit) (Name := ℕ) (U := UR sig nD τ) (Lvl := ℕ) spec0 c (V m c) : sProp 𝕄)
      ⊢ (dats m 0 c).arrays (fun w => (dats m 0 c).arrAt w 0)) :
    θ_run defs (onTc (τ := τ) (main (F := F))) (s₀ m ρ) (Pipeline.FramePost cfgs (dats m) 0 (V m)) := by
  classical
  exact Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj))
    (hu₀ := .rfl)
    (V := V m) (hmain := hmain m Variants.none) (hsplit := hs)
    (X := fun _ => iprop(emp)) (Y := fun _ => iprop(emp))
    (Z := fun c => Pipeline.unscopedRest (Ix := Unit) (Name := ℕ) (U := UR sig nD τ) (Lvl := ℕ) spec0 c (V m c))
    (hX := fun c => by
      iintro HU
      isplitr; · iempintro
      iexact HU)
    (hin := fun c => by
      rw [show (dats m 0 c).Φ 0 = PhiS m c 0 from rfl, PhiS_zero m c 0 rfl]
      iintro ⟨-, HR⟩; iexact HR)
    (hout := fun c => by
      refine (Phi_out m c (Fin.last cfg0.N) (by rw [Fin.val_last]; have : cfg0.N = 25 := N_0; omega)).trans ?_
      iintro HR
      isplitr; · iempintro
      iexact HR)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- The result buffer ends at the output window's final array, and the six arguments end unchanged: four are
    arrays of input windows (never written back), the two bias vectors bypass the region. -/
theorem run_out (hs : ∀ c, (Pipeline.arrBufs (Ix := Unit) (Name := ℕ) (U := UR sig nD τ) (Lvl := ℕ) spec0 c (V m c) : sProp 𝕄)
      ⊢ (dats m 0 c).arrays (fun w => (dats m 0 c).arrAt w 0)) :
    θ_run defs (onTc (τ := τ) (main (F := F))) ⟨m, fun _ => 0, ρ⟩ (fun r => ∀ c : Dev nD,
      r.2.mem ((c.tc : Thread nD τ).loc main_v2) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1 7,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 3).trans (((dats m 0 c).arrAt_in 3 rfl _).trans ((A_eq m c 3).trans (V_main_arg2 m c))),
      ((h c).2 main_arg3 (Pipeline.mem_restRefs_of main_arg3 (by decide) (by decide))).trans (V_main_arg3 m c),
      ((h c).1 5).trans (((dats m 0 c).arrAt_in 5 rfl _).trans ((A_eq m c 5).trans (V_main_arg4 m c))),
      ((h c).2 main_arg5 (Pipeline.mem_restRefs_of main_arg5 (by decide) (by decide))).trans (V_main_arg5 m c)⟩) (run_main m ρ hs)

/-- The program's six arguments end unchanged. -/
theorem frame (hs : ∀ c, (Pipeline.arrBufs (Ix := Unit) (Name := ℕ) (U := UR sig nD τ) (Lvl := ℕ) spec0 c (V m c) : sProp 𝕄)
      ⊢ (dats m 0 c).arrays (fun w => (dats m 0 c).arrAt w 0)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_out m ρ hs)

end Cert.Kernel.Hand

end
-- ==== Proof.BitsSplit.lean ====
/-
  The arrays the region is entered with, dealt out to the windows.

  The call has eight windows on seven arrays: windows 1 and 2 both read the adjacency matrix (each its own 200 rows
  of every 400-row block), every other window has an array of its own, and window 7's is the output. At the region's
  entry each of the seven arrays is held whole at the full share, at the contents the program has given it by then.
  The windows want one holding each, at their own shares: the full share where the array is theirs alone, and for the
  adjacency matrix the full share's two halves, the left one for window 1 and the right one for window 2. A share is
  the composite of its two halves, so the one holding of the adjacency matrix splits into the two the windows want, at
  the same contents; the other six holdings pass as they are. A window's array is a whole buffer, so holding its
  view's element set is holding every element.
-/
import proofs.«168579_g5626407157816_cont_9to1c4b_88_12_alg».proof.Proof.BitsRuns
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- The seven arrays held whole at the full share give each of the eight windows its array at its share: the
    adjacency matrix's holding splits into the two halves of the full share, window 1's and window 2's. -/
theorem arrays_of_arrBufs (c : Dev nD) (dat : Dat τ (Elt F) Unit ℕ (UR sig nD τ) ℕ cfg0 c)
    (hA : ∀ w, dat.A w = V m c (Pipeline.arrRef spec0 w))
    (hq0 : dat.q 0 = fullShare) (hq1 : dat.q 1 = fullShare.left) (hq2 : dat.q 2 = fullShare.right)
    (hq3 : dat.q 3 = fullShare) (hq4 : dat.q 4 = fullShare) (hq5 : dat.q 5 = fullShare) (hq6 : dat.q 6 = fullShare) :
    (Pipeline.arrBufs (Ix := Unit) (Name := ℕ) (U := UR sig nD τ) (Lvl := ℕ) spec0 c (V m c) : sProp 𝕄) ⊢ dat.arrays (fun w => dat.arrAt w 0) := by
  have hs0 : dat.share 0 = fullShare := (if_neg (by decide)).trans hq0
  have hs1 : dat.share 1 = fullShare.left := (if_neg (by decide)).trans hq1
  have hs2 : dat.share 2 = fullShare.right := (if_neg (by decide)).trans hq2
  have hs3 : dat.share 3 = fullShare := (if_neg (by decide)).trans hq3
  have hs4 : dat.share 4 = fullShare := (if_neg (by decide)).trans hq4
  have hs5 : dat.share 5 = fullShare := (if_neg (by decide)).trans hq5
  have hs6 : dat.share 6 = fullShare := (if_neg (by decide)).trans hq6
  have hs7 : dat.share 7 = fullShare := if_pos (by decide)
  have hR : dat.arrays (fun w => dat.arrAt w 0)
      = bigSep Finset.univ fun w : Fin 8 =>
          (((c : Thread nD τ).loc (Pipeline.arrRef spec0 w)) ↦{dat.share w} V m c (Pipeline.arrRef spec0 w) : sProp 𝕄) := by
    unfold Dat.arrays
    exact bigSep_congr fun w _ => by
      rw [(arr_whole0 w).set_eq_univ]
      show (_ ↦{dat.share w} dat.A w) = _
      rw [hA w]
  have hL : (Pipeline.arrBufs (Ix := Unit) (Name := ℕ) (U := UR sig nD τ) (Lvl := ℕ) spec0 c (V m c) : sProp 𝕄)
      = iprop((((c : Thread nD τ).loc main_arg0) ↦{fullShare} V m c main_arg0) ∗ (((c : Thread nD τ).loc main_arg1) ↦{fullShare} V m c main_arg1)
          ∗ (((c : Thread nD τ).loc main_arg2) ↦{fullShare} V m c main_arg2) ∗ (((c : Thread nD τ).loc main_v0) ↦{fullShare} V m c main_v0)
          ∗ (((c : Thread nD τ).loc main_arg4) ↦{fullShare} V m c main_arg4) ∗ (((c : Thread nD τ).loc main_v1) ↦{fullShare} V m c main_v1)
          ∗ (((c : Thread nD τ).loc main_v2) ↦{fullShare} V m c main_v2)) := by
    unfold Pipeline.arrBufs
    exact bigSep_eq_bigSepL_of_eq [main_arg0, main_arg1, main_arg2, main_v0, main_arg4, main_v1, main_v2] (by decide) (by decide) _
  rw [hR, Gen.bigSep_W0, hs0, hs1, hs2, hs3, hs4, hs5, hs6, hs7, hL]
  iintro ⟨H0, H1, H2, H3, H4, H5, H6⟩
  ihave H1' := (pointsTo_share (PosShare.mem_left_op_right fullShare)).1 $$ H1
  icases H1' with ⟨H1l, H1r⟩
  isplitl [H0]; · iexact H0
  isplitl [H1l]; · iexact H1l
  isplitl [H1r]; · iexact H1r
  isplitl [H2]; · iexact H2
  isplitl [H3]; · iexact H3
  isplitl [H4]; · iexact H4
  isplitl [H5]; · iexact H5
  iexact H6

end Cert.Kernel.Hand

end
-- ==== Proof.KernRuns.lean ====
/-
  The graph-convolution kernel's body, run at one grid point on whole staging buffers.

  The launch has 25 grid points. Point t is handed: the whole feature matrix x, two 200-row blocks of adj (rows
  400 t … 400 t + 199 and 400 t + 200 … 400 t + 399; both windows read the one array adj), W1, the bias rows b1
  and b2 laid as [1, 24] and [1, 128], W2, the 400-row output block, and a [10000, 24] scratch that lives across
  points. At the first point the body stores x · W1 into the scratch; at every point it reads the scratch and
  stores the two 200-row halves of the output block. So there are two runs: the first point (the scratch handed in
  at anything, handed back with its one store written) and a later point (the scratch handed in at known contents
  and handed back untouched). In both, the seven inputs come back as they were and the output buffer comes back
  with its two stores written; the stored pieces are whatever the symbolic run finds.
-/
import proofs.«168579_g5626407157816_cont_9to1c4b_88_12_alg».proof.Proof.Gen.KernelIdeal.Launch
import proofs.«168579_g5626407157816_cont_9to1c4b_88_12_alg».proof.Proof.Gen.KernelIdeal.Skeleton
import proofs.«168579_g5626407157816_cont_9to1c4b_88_12_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core c's buffers when the region is entered: after the two reshapes of the biases. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program is the two reshapes, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Neither reshape before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))
/-- Neither reshape before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))
/-- Neither reshape before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    repeat' apply And.intro
    all_goals exact StableHlo.devRef_ne_of_ne (by decide)))
/-- Neither reshape before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    repeat' apply And.intro
    all_goals exact StableHlo.devRef_ne_of_ne (by decide)))
/-- Neither reshape before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.reshape_writes, Finset.mem_singleton]
    repeat' apply And.intro
    all_goals exact StableHlo.devRef_ne_of_ne (by decide)))
/-- Neither reshape before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.reshape_writes, Finset.mem_singleton]
    repeat' apply And.intro
    all_goals exact StableHlo.devRef_ne_of_ne (by decide)))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The body's branch -/

/-- The body's one branch: "this is the first grid point", as the body computes it from the coordinate. -/
abbrev cond0 (i : grid0.Coords) : Prop := (Scalar.cmpi .ne (Scalar.extui (Scalar.cmpi .eq (BitVec.ofNat 32 (i 0).val) 0#32)) 0#32) = 1#1

/-- It holds at point 0 and at no other of the 25 points. -/
theorem hcond0 : ∀ t : Fin cfg0.N, cond0 (grid0.coords t) ↔ t.val = 0 :=
  (by decide +kernel : ∀ t : Fin grid0.N, cond0 (grid0.coords t) ↔ t.val = 0)

/-- The output window is live at every point. -/
theorem liveAt7 : ∀ t : Fin cfg0.N, cfg0.idle 7 (grid0.coords t) = false := by decide +kernel

/-! ## The staging memrefs at a point -/

abbrev ms0 (t : Fin cfg0.N) := win0_0.stage (cfg0.slots t 0)
abbrev hs0 (t : Fin cfg0.N) : (ms0 t).IsWhole := hstage0_0 ((cfg0.slots t 0).cast nbuf0_0)
abbrev ms1 (t : Fin cfg0.N) := win0_1.stage (cfg0.slots t 1)
abbrev hs1 (t : Fin cfg0.N) : (ms1 t).IsWhole := hstage0_1 ((cfg0.slots t 1).cast nbuf0_1)
abbrev ms2 (t : Fin cfg0.N) := win0_2.stage (cfg0.slots t 2)
abbrev hs2 (t : Fin cfg0.N) : (ms2 t).IsWhole := hstage0_2 ((cfg0.slots t 2).cast nbuf0_2)
abbrev ms3 (t : Fin cfg0.N) := win0_3.stage (cfg0.slots t 3)
abbrev hs3 (t : Fin cfg0.N) : (ms3 t).IsWhole := hstage0_3 ((cfg0.slots t 3).cast nbuf0_3)
abbrev ms4 (t : Fin cfg0.N) := win0_4.stage (cfg0.slots t 4)
abbrev hs4 (t : Fin cfg0.N) : (ms4 t).IsWhole := hstage0_4 ((cfg0.slots t 4).cast nbuf0_4)
abbrev ms5 (t : Fin cfg0.N) := win0_5.stage (cfg0.slots t 5)
abbrev hs5 (t : Fin cfg0.N) : (ms5 t).IsWhole := hstage0_5 ((cfg0.slots t 5).cast nbuf0_5)
abbrev ms6 (t : Fin cfg0.N) := win0_6.stage (cfg0.slots t 6)
abbrev hs6 (t : Fin cfg0.N) : (ms6 t).IsWhole := hstage0_6 ((cfg0.slots t 6).cast nbuf0_6)
abbrev ms7 (t : Fin cfg0.N) := win0_7.stage (cfg0.slots t 7)
abbrev hs7 (t : Fin cfg0.N) : (ms7 t).IsWhole := hstage0_7 ((cfg0.slots t 7).cast nbuf0_7)
/-- The scratch the body keeps x · W1 in. -/
abbrev scM : Memref sig .tc .vmem S10000x24 .f32 := Memref.whole cc0_scratch0
/-- One staging buffer of the output window and the scratch as views, through which contents are stated. -/
abbrev VO : View sig .tc .vmem S400x128 .f32 := (Memref.whole cc0_stg7_0 : Memref sig .tc .vmem S400x128 .f32).view
abbrev VS : View sig .tc .vmem S10000x24 .f32 := scM.view

/-- The region's own invariant, with the scratch as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The two runs -/

set_option maxHeartbeats 4000000 in
/-- The body at the first point: the scratch comes back with x · W1 stored, the output buffer with its two halves
    stored. The pieces are found by the run. -/
noncomputable def runFirst (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x24 .f32) (harg4 : arg4.IsWhole) (arg5 : Memref sig .tc .vmem S1x24 .f32) (harg5 : arg5.IsWhole) (arg6 : Memref sig .tc .vmem S24x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x24 .f32) (harg9 : arg9.IsWhole) (hc : cond0 i)
    (x0 : Vec F S10000x128 .f32) (x1 : Vec F S200x10000 .f32) (x2 : Vec F S200x10000 .f32) (x3 : Vec F S128x24 .f32) (x4 : Vec F S1x24 .f32) (x5 : Vec F S24x128 .f32) (x6 : Vec F S1x128 .f32) :
    Σ' (L7 : List (View.Piece (Elt F) S400x128 .f32)), { LS : List (View.Piece (Elt F) S10000x24 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9) K } := by
  refine ⟨?_, ?_, fun E K => ?run⟩
  case run =>
    simp only [cc0__body_eq_skeleton]; unfold cc0__body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    iexists _; iexact H8

set_option maxHeartbeats 4000000 in
/-- The body at a later point: the scratch, handed in at contents xs, comes back untouched; the output buffer
    comes back with its two halves stored. -/
noncomputable def runLater (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x24 .f32) (harg4 : arg4.IsWhole) (arg5 : Memref sig .tc .vmem S1x24 .f32) (harg5 : arg5.IsWhole) (arg6 : Memref sig .tc .vmem S24x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x24 .f32) (harg9 : arg9.IsWhole) (hc : ¬cond0 i)
    (x0 : Vec F S10000x128 .f32) (x1 : Vec F S200x10000 .f32) (x2 : Vec F S200x10000 .f32) (x3 : Vec F S128x24 .f32) (x4 : Vec F S1x24 .f32) (x5 : Vec F S24x128 .f32) (x6 : Vec F S1x128 .f32) (xs : Vec F S10000x24 .f32) :
    { L7 : List (View.Piece (Elt F) S400x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ owns (c : Thread nD τ) arg9 fullShare xs) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9) K } := by
  refine ⟨?_, fun E K => ?run⟩
  case run =>
    simp only [cc0__body_eq_skeleton]; unfold cc0__body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    iexists _; isplitr; · ipureintro; exact harg9.read_unread _
    iexact H8

end Cert.KernelIdeal.Hand

end
-- ==== Proof.KernFrame.lean ====
/-
  The graph-convolution kernel's launch: what every grid point leaves, and the run of the whole program.

  After the first point the scratch holds x · W1 and no later point stores into it, so the invariant carried from
  point to point is: before point 0 the scratch at anything; afterwards the scratch at what the first point stored.
  Every point leaves the seven input buffers at their blocks and the output buffer at its two stored halves, which
  cover it. Two of the input windows read one array (the two 200-row halves of a 400-row stripe of adj): the
  array's points-to is split between them, half a share each; nothing else about the launch notices. The program's
  arguments end unchanged: four are arrays of input windows, never written back; the two bias vectors bypass the
  region.
-/
import proofs.«168579_g5626407157816_cont_9to1c4b_88_12_alg».proof.Proof.KernRuns

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the stores cover -/

/-- The first point's two stores into the output buffer tile it. -/
theorem cover7First (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x24 .f32) (harg4 : arg4.IsWhole) (arg5 : Memref sig .tc .vmem S1x24 .f32) (harg5 : arg5.IsWhole) (arg6 : Memref sig .tc .vmem S24x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x24 .f32) (harg9 : arg9.IsWhole) (hc : cond0 i) (x0 : Vec F S10000x128 .f32) (x1 : Vec F S200x10000 .f32) (x2 : Vec F S200x10000 .f32) (x3 : Vec F S128x24 .f32) (x4 : Vec F S1x24 .f32) (x5 : Vec F S24x128 .f32) (x6 : Vec F S1x128 .f32) (y : S400x128.Idx) :
    ∃ pc ∈ (runFirst c i arg1 harg1 arg2 harg2 arg3 harg3 arg4 harg4 arg5 harg5 arg6 harg6 arg7 harg7 arg8 harg8 arg9 harg9 hc x0 x1 x2 x3 x4 x5 x6).1, y ∈ pc.1.set :=
  View.cover_of_tiledL (runFirst c i arg1 harg1 arg2 harg2 arg3 harg3 arg4 harg4 arg5 harg5 arg6 harg6 arg7 harg7 arg8 harg8 arg9 harg9 hc x0 x1 x2 x3 x4 x5 x6).1 S200x128.size (by sl_kernel_rfl) y

/-- The first point's store into the scratch covers it. -/
theorem scoverFirst (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x24 .f32) (harg4 : arg4.IsWhole) (arg5 : Memref sig .tc .vmem S1x24 .f32) (harg5 : arg5.IsWhole) (arg6 : Memref sig .tc .vmem S24x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x24 .f32) (harg9 : arg9.IsWhole) (hc : cond0 i) (x0 : Vec F S10000x128 .f32) (x1 : Vec F S200x10000 .f32) (x2 : Vec F S200x10000 .f32) (x3 : Vec F S128x24 .f32) (x4 : Vec F S1x24 .f32) (x5 : Vec F S24x128 .f32) (x6 : Vec F S1x128 .f32) (y : S10000x24.Idx) :
    ∃ pc ∈ (runFirst c i arg1 harg1 arg2 harg2 arg3 harg3 arg4 harg4 arg5 harg5 arg6 harg6 arg7 harg7 arg8 harg8 arg9 harg9 hc x0 x1 x2 x3 x4 x5 x6).2.1, y ∈ pc.1.set :=
  View.cover_of_tiledL (runFirst c i arg1 harg1 arg2 harg2 arg3 harg3 arg4 harg4 arg5 harg5 arg6 harg6 arg7 harg7 arg8 harg8 arg9 harg9 hc x0 x1 x2 x3 x4 x5 x6).2.1 S10000x24.size (by sl_kernel_rfl) y

/-- A later point's two stores into the output buffer tile it. -/
theorem cover7Later (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x24 .f32) (harg4 : arg4.IsWhole) (arg5 : Memref sig .tc .vmem S1x24 .f32) (harg5 : arg5.IsWhole) (arg6 : Memref sig .tc .vmem S24x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x24 .f32) (harg9 : arg9.IsWhole) (hc : ¬cond0 i) (x0 : Vec F S10000x128 .f32) (x1 : Vec F S200x10000 .f32) (x2 : Vec F S200x10000 .f32) (x3 : Vec F S128x24 .f32) (x4 : Vec F S1x24 .f32) (x5 : Vec F S24x128 .f32) (x6 : Vec F S1x128 .f32) (xs : Vec F S10000x24 .f32) (y : S400x128.Idx) :
    ∃ pc ∈ (runLater c i arg1 harg1 arg2 harg2 arg3 harg3 arg4 harg4 arg5 harg5 arg6 harg6 arg7 harg7 arg8 harg8 arg9 harg9 hc x0 x1 x2 x3 x4 x5 x6 xs).1, y ∈ pc.1.set :=
  View.cover_of_tiledL (runLater c i arg1 harg1 arg2 harg2 arg3 harg3 arg4 harg4 arg5 harg5 arg6 harg6 arg7 harg7 arg8 harg8 arg9 harg9 hc x0 x1 x2 x3 x4 x5 x6 xs).1 S200x128.size (by sl_kernel_rfl) y

/-- What the first point leaves in the output buffer: its pieces read back. -/
def outFirst (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x24 .f32) (harg4 : arg4.IsWhole) (arg5 : Memref sig .tc .vmem S1x24 .f32) (harg5 : arg5.IsWhole) (arg6 : Memref sig .tc .vmem S24x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x24 .f32) (harg9 : arg9.IsWhole) (hc : cond0 i) (x0 : Vec F S10000x128 .f32) (x1 : Vec F S200x10000 .f32) (x2 : Vec F S200x10000 .f32) (x3 : Vec F S128x24 .f32) (x4 : Vec F S1x24 .f32) (x5 : Vec F S24x128 .f32) (x6 : Vec F S1x128 .f32) : Vec F S400x128 .f32 :=
  VO.read (Elt F) (VO.writes (Elt F) VO.junk (runFirst c i arg1 harg1 arg2 harg2 arg3 harg3 arg4 harg4 arg5 harg5 arg6 harg6 arg7 harg7 arg8 harg8 arg9 harg9 hc x0 x1 x2 x3 x4 x5 x6).1)

/-- What the first point leaves in the scratch: its piece read back. -/
def scrFirst (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x24 .f32) (harg4 : arg4.IsWhole) (arg5 : Memref sig .tc .vmem S1x24 .f32) (harg5 : arg5.IsWhole) (arg6 : Memref sig .tc .vmem S24x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x24 .f32) (harg9 : arg9.IsWhole) (hc : cond0 i) (x0 : Vec F S10000x128 .f32) (x1 : Vec F S200x10000 .f32) (x2 : Vec F S200x10000 .f32) (x3 : Vec F S128x24 .f32) (x4 : Vec F S1x24 .f32) (x5 : Vec F S24x128 .f32) (x6 : Vec F S1x128 .f32) : Vec F S10000x24 .f32 :=
  VS.read (Elt F) (VS.writes (Elt F) VS.junk (runFirst c i arg1 harg1 arg2 harg2 arg3 harg3 arg4 harg4 arg5 harg5 arg6 harg6 arg7 harg7 arg8 harg8 arg9 harg9 hc x0 x1 x2 x3 x4 x5 x6).2.1)

/-- What a later point leaves in the output buffer. -/
def outLater (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x24 .f32) (harg4 : arg4.IsWhole) (arg5 : Memref sig .tc .vmem S1x24 .f32) (harg5 : arg5.IsWhole) (arg6 : Memref sig .tc .vmem S24x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x24 .f32) (harg9 : arg9.IsWhole) (hc : ¬cond0 i) (x0 : Vec F S10000x128 .f32) (x1 : Vec F S200x10000 .f32) (x2 : Vec F S200x10000 .f32) (x3 : Vec F S128x24 .f32) (x4 : Vec F S1x24 .f32) (x5 : Vec F S24x128 .f32) (x6 : Vec F S1x128 .f32) (xs : Vec F S10000x24 .f32) : Vec F S400x128 .f32 :=
  VO.read (Elt F) (VO.writes (Elt F) VO.junk (runLater c i arg1 harg1 arg2 harg2 arg3 harg3 arg4 harg4 arg5 harg5 arg6 harg6 arg7 harg7 arg8 harg8 arg9 harg9 hc x0 x1 x2 x3 x4 x5 x6 xs).1)

/-! ## Point by point -/

/-- The first grid point. -/
abbrev t0 : Fin cfg0.N := ⟨0, lt_of_lt_of_eq (Nat.succ_pos 24) N_0.symm⟩

/-- The scratch after every point: what the first point stored. -/
def scr (c : Dev nD) : Vec F S10000x24 .f32 :=
  scrFirst c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) scM (Memref.isWhole_whole _) ((hcond0 t0).mpr rfl) (iblk m c 0 t0) (iblk m c 1 t0) (iblk m c 2 t0) (iblk m c 3 t0) (iblk m c 4 t0) (iblk m c 5 t0) (iblk m c 6 t0)

/-- The output buffer after point t. -/
def out7 (c : Dev nD) (t : Fin cfg0.N) : Vec F S400x128 .f32 :=
  if h : t.val = 0 then outFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) ((hcond0 t).mpr h) (iblk m c 0 t) (iblk m c 1 t) (iblk m c 2 t) (iblk m c 3 t) (iblk m c 4 t) (iblk m c 5 t) (iblk m c 6 t)
  else outLater c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (fun hc => h ((hcond0 t).mp hc)) (iblk m c 0 t) (iblk m c 1 t) (iblk m c 2 t) (iblk m c 3 t) (iblk m c 4 t) (iblk m c 5 t) (iblk m c 6 t) (scr m c)

theorem out7_first (c : Dev nD) (t : Fin cfg0.N) (h : t.val = 0) :
    out7 m c t = outFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) ((hcond0 t).mpr h) (iblk m c 0 t) (iblk m c 1 t) (iblk m c 2 t) (iblk m c 3 t) (iblk m c 4 t) (iblk m c 5 t) (iblk m c 6 t) := dif_pos h

theorem out7_later (c : Dev nD) (t : Fin cfg0.N) (h : ¬t.val = 0) :
    out7 m c t = outLater c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (fun hc => h ((hcond0 t).mp hc)) (iblk m c 0 t) (iblk m c 1 t) (iblk m c 2 t) (iblk m c 3 t) (iblk m c 4 t) (iblk m c 5 t) (iblk m c 6 t) (scr m c) := dif_neg h

/-- The scoped buffers the pipeline does not stage: the scratch, owned at some contents. -/
theorem scoped_eq (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

/-- The invariant before position n: at first the scratch at anything, then at what the first point stored. -/
def PhiS (c : Dev nD) : ℕ → sProp 𝕄
  | 0 => Pipeline.scopedRest (Ix := Unit) (Name := ℕ) (U := UR sig nD τ) (Lvl := ℕ) (Val := Elt F) spec0 c
  | _ + 1 => owns (c : Thread nD τ) scM fullShare (scr m c)

theorem PhiS_zero (c : Dev nD) (n : ℕ) (hz : n = 0) :
    PhiS m c n = Pipeline.scopedRest (Ix := Unit) (Name := ℕ) (U := UR sig nD τ) (Lvl := ℕ) (Val := Elt F) spec0 c := by
  subst hz; rfl

theorem PhiS_pos (c : Dev nD) (n : ℕ) (hz : n ≠ 0) : PhiS m c n = owns (c : Thread nD τ) scM fullShare (scr m c) := by
  cases n with
  | zero => exact absurd rfl hz
  | succ n => rfl

/-! ## The proof data -/

/-- The proof data on core c: the arrays as the region finds them; after the body each input buffer at its block
    and the output buffer at its two halves; the two windows on adj at half a share each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 m c t
    | ⟨_ + 8, h⟩ => absurd h (Nat.not_lt.2 (Nat.le_add_left _ _))
  Φ t := PhiS m c t.val
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
    | ⟨7, _⟩ => fullShare
    | ⟨_ + 8, h⟩ => absurd h (Nat.not_lt.2 (Nat.le_add_left _ _))
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = out7 m c t := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
theorem liveAt4 : ∀ t : Fin cfg0.N, cfg0.idle 4 (grid0.coords t) = false := by decide +kernel
theorem liveAt5 : ∀ t : Fin cfg0.N, cfg0.idle 5 (grid0.coords t) = false := by decide +kernel
theorem liveAt6 : ∀ t : Fin cfg0.N, cfg0.idle 6 (grid0.coords t) = false := by decide +kernel

/-! ## The body obligation -/

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4800000 in
/-- The body at any point: the inputs' buffers hold their blocks; at the first point the scratch is handed in at
    anything and comes back at its store, at a later point it is handed in and comes back at that same contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl]
  rw [show (dats m 0 c).Φ t.succ = owns (c : Thread nD τ) scM fullShare (scr m c) from rfl]
  rw [show (dats m 0 c).leavesExact 0 t = owns (c : Thread nD τ) (ms0 t) fullShare ((dats m 0 c).after 0 t) from by
    unfold Dat.leavesExact; rw [liveAt0 t], after0]
  rw [show (dats m 0 c).leavesExact 1 t = owns (c : Thread nD τ) (ms1 t) fullShare ((dats m 0 c).after 1 t) from by
    unfold Dat.leavesExact; rw [liveAt1 t], after1]
  rw [show (dats m 0 c).leavesExact 2 t = owns (c : Thread nD τ) (ms2 t) fullShare ((dats m 0 c).after 2 t) from by
    unfold Dat.leavesExact; rw [liveAt2 t], after2]
  rw [show (dats m 0 c).leavesExact 3 t = owns (c : Thread nD τ) (ms3 t) fullShare ((dats m 0 c).after 3 t) from by
    unfold Dat.leavesExact; rw [liveAt3 t], after3]
  rw [show (dats m 0 c).leavesExact 4 t = owns (c : Thread nD τ) (ms4 t) fullShare ((dats m 0 c).after 4 t) from by
    unfold Dat.leavesExact; rw [liveAt4 t], after4]
  rw [show (dats m 0 c).leavesExact 5 t = owns (c : Thread nD τ) (ms5 t) fullShare ((dats m 0 c).after 5 t) from by
    unfold Dat.leavesExact; rw [liveAt5 t], after5]
  rw [show (dats m 0 c).leavesExact 6 t = owns (c : Thread nD τ) (ms6 t) fullShare ((dats m 0 c).after 6 t) from by
    unfold Dat.leavesExact; rw [liveAt6 t], after6]
  rw [show (dats m 0 c).leavesExact 7 t = owns (c : Thread nD τ) (ms7 t) fullShare ((dats m 0 c).after 7 t) from by
    unfold Dat.leavesExact; rw [liveAt7 t], after7]
  rw [Phi_castSucc]
  by_cases hz : t.val = 0
  · rw [out7_first m c t hz, PhiS_zero m c _ hz, scoped_eq]
    obtain rfl : t = t0 := Fin.ext hz
    unfold outFirst
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runFirst c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) scM (Memref.isWhole_whole _) ((hcond0 t0).mpr rfl) (iblk m c 0 t0) (iblk m c 1 t0) (iblk m c 2 t0) (iblk m c 3 t0) (iblk m c 4 t0) (iblk m c 5 t0) (iblk m c 6 t0)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, ⟨%e7, H7⟩, ⟨%es, HS⟩⟩
    isplitl [HS]
    · unfold scr scrFirst owns; iexists _; isplitr
      swap; · iexact HS
      ipureintro; exact View.read_writes_of_cover _ _ _ _ _ (scoverFirst c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) scM (Memref.isWhole_whole _) ((hcond0 t0).mpr rfl) (iblk m c 0 t0) (iblk m c 1 t0) (iblk m c 2 t0) (iblk m c 3 t0) (iblk m c 4 t0) (iblk m c 5 t0) (iblk m c 6 t0))
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (cover7First c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) scM (Memref.isWhole_whole _) ((hcond0 t0).mpr rfl) (iblk m c 0 t0) (iblk m c 1 t0) (iblk m c 2 t0) (iblk m c 3 t0) (iblk m c 4 t0) (iblk m c 5 t0) (iblk m c 6 t0))
  · rw [out7_later m c t hz, PhiS_pos m c _ hz]
    unfold outLater
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runLater c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (fun hc => hz ((hcond0 t).mp hc)) (iblk m c 0 t) (iblk m c 1 t) (iblk m c 2 t) (iblk m c 3 t) (iblk m c 4 t) (iblk m c 5 t) (iblk m c 6 t) (scr m c)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, ⟨%e7, H7⟩, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (cover7Later c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (fun hc => hz ((hcond0 t).mp hc)) (iblk m c 0 t) (iblk m c 1 t) (iblk m c 2 t) (iblk m c 3 t) (iblk m c 4 t) (iblk m c 5 t) (iblk m c 6 t) (scr m c))

/-- The library's body obligation, at every point. -/
theorem body_obligation (c : Dev nD) : BodyObligation (dats (F := F) m 0 c) (defs₀ (F := F)) Variants.none () Set.univ := fun t => by
  rw [bigSep_W0, bigSep_W0]
  exact sound_body m c t

/-- After any point but the first the invariant gives the scratch back at some contents. -/
theorem Phi_out (c : Dev nD) (t : Fin (cfg0.N + 1)) (ht : t.val ≠ 0) :
    (dats m 0 c).Φ t ⊢ (Pipeline.scopedRest (Ix := Unit) (Name := ℕ) (U := UR sig nD τ) (Lvl := ℕ) (Val := Elt F) spec0 c : sProp 𝕄) := by
  rw [show (dats m 0 c).Φ t = PhiS m c t.val from rfl, PhiS_pos m c _ ht, scoped_eq]
  iintro HS
  iexists _; iexact HS

/-! ## The run -/

set_option backward.isDefEq.respectTransparency.types false in
/-- Every weakly fair execution of the program terminates; every window's array ends at what the proof data
    computes, every other unscoped buffer as the region found it. The launch splits the shared array's points-to
    between its two windows (hs). -/
theorem run_main (hs : ∀ c, (Pipeline.arrBufs (Ix := Unit) (Name := ℕ) (U := UR sig nD τ) (Lvl := ℕ) spec0 c (V m c) : sProp 𝕄)
      ⊢ (dats m 0 c).arrays (fun w => (dats m 0 c).arrAt w 0)) :
    θ_run defs (onTc (τ := τ) (main (F := F))) (s₀ m ρ) (Pipeline.FramePost cfgs (dats m) 0 (V m)) := by
  classical
  exact Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj))
    (hu₀ := .rfl)
    (V := V m) (hmain := hmain m Variants.none) (hsplit := hs)
    (X := fun _ => iprop(emp)) (Y := fun _ => iprop(emp))
    (Z := fun c => Pipeline.unscopedRest (Ix := Unit) (Name := ℕ) (U := UR sig nD τ) (Lvl := ℕ) spec0 c (V m c))
    (hX := fun c => by
      iintro HU
      isplitr; · iempintro
      iexact HU)
    (hin := fun c => by
      rw [show (dats m 0 c).Φ 0 = PhiS m c 0 from rfl, PhiS_zero m c 0 rfl]
      iintro ⟨-, HR⟩; iexact HR)
    (hout := fun c => by
      refine (Phi_out m c (Fin.last cfg0.N) (by rw [Fin.val_last]; have : cfg0.N = 25 := N_0; omega)).trans ?_
      iintro HR
      isplitr; · iempintro
      iexact HR)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- The result buffer ends at the output window's final array, and the six arguments end unchanged: four are
    arrays of input windows (never written back), the two bias vectors bypass the region. -/
theorem run_out (hs : ∀ c, (Pipeline.arrBufs (Ix := Unit) (Name := ℕ) (U := UR sig nD τ) (Lvl := ℕ) spec0 c (V m c) : sProp 𝕄)
      ⊢ (dats m 0 c).arrays (fun w => (dats m 0 c).arrAt w 0)) :
    θ_run defs (onTc (τ := τ) (main (F := F))) ⟨m, fun _ => 0, ρ⟩ (fun r => ∀ c : Dev nD,
      r.2.mem ((c.tc : Thread nD τ).loc main_v2) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1 7,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 3).trans (((dats m 0 c).arrAt_in 3 rfl _).trans ((A_eq m c 3).trans (V_main_arg2 m c))),
      ((h c).2 main_arg3 (Pipeline.mem_restRefs_of main_arg3 (by decide) (by decide))).trans (V_main_arg3 m c),
      ((h c).1 5).trans (((dats m 0 c).arrAt_in 5 rfl _).trans ((A_eq m c 5).trans (V_main_arg4 m c))),
      ((h c).2 main_arg5 (Pipeline.mem_restRefs_of main_arg5 (by decide) (by decide))).trans (V_main_arg5 m c)⟩) (run_main m ρ hs)

/-- The program's six arguments end unchanged. -/
theorem frame (hs : ∀ c, (Pipeline.arrBufs (Ix := Unit) (Name := ℕ) (U := UR sig nD τ) (Lvl := ℕ) spec0 c (V m c) : sProp 𝕄)
      ⊢ (dats m 0 c).arrays (fun w => (dats m 0 c).arrAt w 0)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_out m ρ hs)

end Cert.KernelIdeal.Hand

end
-- ==== Proof.KernSplit.lean ====
/-
  The arrays the region is entered with, dealt out to the windows.

  The call has eight windows on seven arrays: windows 1 and 2 both read the adjacency matrix (each its own 200 rows
  of every 400-row block), every other window has an array of its own, and window 7's is the output. At the region's
  entry each of the seven arrays is held whole at the full share, at the contents the program has given it by then.
  The windows want one holding each, at their own shares: the full share where the array is theirs alone, and for the
  adjacency matrix the full share's two halves, the left one for window 1 and the right one for window 2. A share is
  the composite of its two halves, so the one holding of the adjacency matrix splits into the two the windows want, at
  the same contents; the other six holdings pass as they are. A window's array is a whole buffer, so holding its
  view's element set is holding every element.
-/
import proofs.«168579_g5626407157816_cont_9to1c4b_88_12_alg».proof.Proof.KernRuns
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The seven arrays held whole at the full share give each of the eight windows its array at its share: the
    adjacency matrix's holding splits into the two halves of the full share, window 1's and window 2's. -/
theorem arrays_of_arrBufs (c : Dev nD) (dat : Dat τ (Elt F) Unit ℕ (UR sig nD τ) ℕ cfg0 c)
    (hA : ∀ w, dat.A w = V m c (Pipeline.arrRef spec0 w))
    (hq0 : dat.q 0 = fullShare) (hq1 : dat.q 1 = fullShare.left) (hq2 : dat.q 2 = fullShare.right)
    (hq3 : dat.q 3 = fullShare) (hq4 : dat.q 4 = fullShare) (hq5 : dat.q 5 = fullShare) (hq6 : dat.q 6 = fullShare) :
    (Pipeline.arrBufs (Ix := Unit) (Name := ℕ) (U := UR sig nD τ) (Lvl := ℕ) spec0 c (V m c) : sProp 𝕄) ⊢ dat.arrays (fun w => dat.arrAt w 0) := by
  have hs0 : dat.share 0 = fullShare := (if_neg (by decide)).trans hq0
  have hs1 : dat.share 1 = fullShare.left := (if_neg (by decide)).trans hq1
  have hs2 : dat.share 2 = fullShare.right := (if_neg (by decide)).trans hq2
  have hs3 : dat.share 3 = fullShare := (if_neg (by decide)).trans hq3
  have hs4 : dat.share 4 = fullShare := (if_neg (by decide)).trans hq4
  have hs5 : dat.share 5 = fullShare := (if_neg (by decide)).trans hq5
  have hs6 : dat.share 6 = fullShare := (if_neg (by decide)).trans hq6
  have hs7 : dat.share 7 = fullShare := if_pos (by decide)
  have hR : dat.arrays (fun w => dat.arrAt w 0)
      = bigSep Finset.univ fun w : Fin 8 =>
          (((c : Thread nD τ).loc (Pipeline.arrRef spec0 w)) ↦{dat.share w} V m c (Pipeline.arrRef spec0 w) : sProp 𝕄) := by
    unfold Dat.arrays
    exact bigSep_congr fun w _ => by
      rw [(arr_whole0 w).set_eq_univ]
      show (_ ↦{dat.share w} dat.A w) = _
      rw [hA w]
  have hL : (Pipeline.arrBufs (Ix := Unit) (Name := ℕ) (U := UR sig nD τ) (Lvl := ℕ) spec0 c (V m c) : sProp 𝕄)
      = iprop((((c : Thread nD τ).loc main_arg0) ↦{fullShare} V m c main_arg0) ∗ (((c : Thread nD τ).loc main_arg1) ↦{fullShare} V m c main_arg1)
          ∗ (((c : Thread nD τ).loc main_arg2) ↦{fullShare} V m c main_arg2) ∗ (((c : Thread nD τ).loc main_v0) ↦{fullShare} V m c main_v0)
          ∗ (((c : Thread nD τ).loc main_arg4) ↦{fullShare} V m c main_arg4) ∗ (((c : Thread nD τ).loc main_v1) ↦{fullShare} V m c main_v1)
          ∗ (((c : Thread nD τ).loc main_v2) ↦{fullShare} V m c main_v2)) := by
    unfold Pipeline.arrBufs
    exact bigSep_eq_bigSepL_of_eq [main_arg0, main_arg1, main_arg2, main_v0, main_arg4, main_v1, main_v2] (by decide) (by decide) _
  rw [hR, Gen.bigSep_W0, hs0, hs1, hs2, hs3, hs4, hs5, hs6, hs7, hL]
  iintro ⟨H0, H1, H2, H3, H4, H5, H6⟩
  ihave H1' := (pointsTo_share (PosShare.mem_left_op_right fullShare)).1 $$ H1
  icases H1' with ⟨H1l, H1r⟩
  isplitl [H0]; · iexact H0
  isplitl [H1l]; · iexact H1l
  isplitl [H1r]; · iexact H1r
  isplitl [H2]; · iexact H2
  isplitl [H3]; · iexact H3
  isplitl [H4]; · iexact H4
  isplitl [H5]; · iexact H5
  iexact H6

end Cert.KernelIdeal.Hand

end
-- ==== Proof.Spec.lean ====
/-
  The graph-convolution layer as one function of its six argument arrays, entry by entry, on the extended reals.

  With x : [10000, 128], adj : [10000, 10000], W1 : [128, 24], b1 : [24], W2 : [24, 128], b2 : [128]:

    support (l, k) = Σ_m x (l, m) · W1 (m, k)
    hidden  (i, k) = Σ_l adj (i, l) · support (l, k) + b1 k
    out     (i, j) = tanh ( Σ_k leaky (hidden (i, k)) · W2 (k, j) + b2 j )

  where leaky h is h for h > 0 and slope · h otherwise. The two sums are grouped the same way in both programs
  (first x · W1, then adj against it), so no distributive law is involved and nothing here needs the entries to be
  finite. The only place the two programs differ is the test of the leaky unit: one asks h > 0, the other h ≥ 0.
  They can only disagree at h = 0, where one answers h = 0 and the other slope · 0 = 0.
-/
import Idealize.ShloMosaic.Lib.ValueIdx
import Idealize.ShloMosaic.PureOps.Ideal.Laws

noncomputable section

open scoped BigOperators

namespace Cert.Spec

open Idealize.ShloMosaic Idealize.ShloMosaic.ValueIdx

/-- The slope of the leaky unit, as the word both programs carry; its value is never needed. -/
abbrev slope : EReal := Ideal.ofBits .f32 0x3C23D70A#32

/-- The threshold of the leaky unit, as the word both programs carry: it denotes zero. -/
abbrev zero : EReal := Ideal.ofBits .f32 0x00000000#32

/-- The leaky unit with the strict test. -/
def leaky (h : EReal) : EReal := Scalar.select (Ideal.cmp .ogt h zero) h (slope * h)

/-- The weak test picks the same value: the tests differ only at h = 0, where both branches are 0. -/
theorem leaky_of_ge (h : EReal) : Scalar.select (Ideal.cmp .oge h zero) h (slope * h) = leaky h := by
  unfold leaky
  simp only [Ideal.cmp, Ideal.ofBits_zero_f32]
  by_cases h0 : (0 : EReal) < h
  · rw [decide_eq_true h0, decide_eq_true h0.le]
  · by_cases h1 : (0 : EReal) ≤ h
    · have e : h = 0 := le_antisymm (not_lt.mp h0) h1
      subst e
      simp [Scalar.select]
    · rw [decide_eq_false h0, decide_eq_false h1]

/-- x · W1 at (l, k). -/
def support (x : (⟨2, ![10000, 128]⟩ : Shape).Idx → EReal) (W1 : (⟨2, ![128, 24]⟩ : Shape).Idx → EReal)
    (l : Fin 10000) (k : Fin 24) : EReal :=
  ∑ m : Fin 128, x (ix2 l m) * W1 (ix2 m k)

/-- adj · (x · W1) + b1 at (i, k). -/
def hidden (x : (⟨2, ![10000, 128]⟩ : Shape).Idx → EReal) (adj : (⟨2, ![10000, 10000]⟩ : Shape).Idx → EReal)
    (W1 : (⟨2, ![128, 24]⟩ : Shape).Idx → EReal) (b1 : (⟨1, ![24]⟩ : Shape).Idx → EReal)
    (i : Fin 10000) (k : Fin 24) : EReal :=
  (∑ l : Fin 10000, adj (ix2 i l) * support x W1 l k) + b1 (ix1 k)

/-- The layer's result at (i, j). -/
def out (x : (⟨2, ![10000, 128]⟩ : Shape).Idx → EReal) (adj : (⟨2, ![10000, 10000]⟩ : Shape).Idx → EReal)
    (W1 : (⟨2, ![128, 24]⟩ : Shape).Idx → EReal) (b1 : (⟨1, ![24]⟩ : Shape).Idx → EReal)
    (W2 : (⟨2, ![24, 128]⟩ : Shape).Idx → EReal) (b2 : (⟨1, ![128]⟩ : Shape).Idx → EReal)
    (i : Fin 10000) (j : Fin 128) : EReal :=
  Ideal.tanh ((∑ k : Fin 24, leaky (hidden x adj W1 b1 i k) * W2 (ix2 k j)) + b2 (ix1 j))

/-- The layer's result as an array. -/
def G (x : (⟨2, ![10000, 128]⟩ : Shape).Idx → EReal) (adj : (⟨2, ![10000, 10000]⟩ : Shape).Idx → EReal)
    (W1 : (⟨2, ![128, 24]⟩ : Shape).Idx → EReal) (b1 : (⟨1, ![24]⟩ : Shape).Idx → EReal)
    (W2 : (⟨2, ![24, 128]⟩ : Shape).Idx → EReal) (b2 : (⟨1, ![128]⟩ : Shape).Idx → EReal) :
    (⟨2, ![10000, 128]⟩ : Shape).Idx → EReal :=
  fun i => out x adj W1 b1 W2 b2 ⟨(i 0).val, idx2_lt0 i⟩ ⟨(i 1).val, idx2_lt1 i⟩

theorem G_ix2 (x : (⟨2, ![10000, 128]⟩ : Shape).Idx → EReal) (adj : (⟨2, ![10000, 10000]⟩ : Shape).Idx → EReal)
    (W1 : (⟨2, ![128, 24]⟩ : Shape).Idx → EReal) (b1 : (⟨1, ![24]⟩ : Shape).Idx → EReal)
    (W2 : (⟨2, ![24, 128]⟩ : Shape).Idx → EReal) (b2 : (⟨1, ![128]⟩ : Shape).Idx → EReal) (p : Fin 10000) (q : Fin 128) :
    G x adj W1 b1 W2 b2 (ix2 p q) = out x adj W1 b1 W2 b2 p q := rfl

end Cert.Spec

end
-- ==== Proof.LibPlainDot.lean ====
/-
  A plain matrix product [M, K] · [K, N] (the dimension numbers that contract the left operand's columns with the
  right operand's rows, no batch axis) read at a single entry on the extended reals: entry (p, q) is the sum over
  k of x (p, k) · y (k, q). This holds of the vector unit's product into a zero accumulator and of the host's
  dot_general alike, because at the ideal values both are the exact sum over the contraction index, and for
  these dimension numbers that index is one coordinate k < K.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable (M K N : ℕ)

/-- The left operand's row is the result's row. -/
theorem lhs_row (i : (⟨2, ![M, N]⟩ : Shape).Idx) (k : (DotDims.plain M K N).contr.Idx) :
    ((DotDims.plain M K N).lhsIdx i k 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction coordinate. -/
theorem lhs_col (i : (⟨2, ![M, N]⟩ : Shape).Idx) (k : (DotDims.plain M K N).contr.Idx) :
    ((DotDims.plain M K N).lhsIdx i k 1).val = (k ⟨0, (show 0 < (DotDims.plain M K N).contr.rank from Nat.one_pos)⟩).val :=
  (DotDims.plain M K N).lhsIdx_val_of_single rfl i k

/-- The right operand's row is the contraction coordinate. -/
theorem rhs_row (i : (⟨2, ![M, N]⟩ : Shape).Idx) (k : (DotDims.plain M K N).contr.Idx) :
    ((DotDims.plain M K N).rhsIdx i k 0).val = (k ⟨0, (show 0 < (DotDims.plain M K N).contr.rank from Nat.one_pos)⟩).val :=
  (DotDims.plain M K N).rhsIdx_val_of_single rfl i k

/-- The right operand's column is the result's column. -/
theorem rhs_col (i : (⟨2, ![M, N]⟩ : Shape).Idx) (k : (DotDims.plain M K N).contr.Idx) :
    ((DotDims.plain M K N).rhsIdx i k 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction index, re-indexed by its one coordinate. -/
theorem sum_contr (x : (⟨2, ![M, K]⟩ : Shape).Idx → EReal) (y : (⟨2, ![K, N]⟩ : Shape).Idx → EReal) (p : Fin M) (q : Fin N) :
    ∑ k : (DotDims.plain M K N).contr.Idx,
        x ((DotDims.plain M K N).lhsIdx (ix2 p q) k) * y ((DotDims.plain M K N).rhsIdx (ix2 p q) k)
      = ∑ k : Fin K, x (ix2 p k) * y (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row M K N _ _).trans hk
      | ⟨1, _⟩ => exact rhs_col M K N _ _)
  rw [el, er]

variable {M K N}

/-- The vector unit's product into the zero accumulator, at entry (p, q). The dimension record is any one that
    is the plain one (a program's own record is, by unfolding). -/
theorem matmul_zero_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    matmul D prec x y (constant (F := Ideal) ⟨2, ![M, N]⟩ .f32 0x00000000#32) (ix2 p q) = ∑ k : Fin K, x (ix2 p k) * y (ix2 k q) := by
  subst hD
  exact (Ideal.matmul_constant_zero_apply _ prec x y (ix2 p q)).trans (sum_contr M K N x y p q)

/-- The host's dot_general, at entry (p, q). -/
theorem dotGeneral_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    Host.dotGeneral D prec x y (ix2 p q) = ∑ k : Fin K, x (ix2 p k) * y (ix2 k q) := by
  subst hD
  exact (Ideal.dotGeneral_apply _ prec .single x y (ix2 p q)).trans (sum_contr M K N x y p q)

end Cert.Lib.PlainDot

end
-- ==== Proof.KernPay.lean ====
/-
  What the body's stored values are, entry by entry, on the extended reals.

  The body keeps the product x · W1 : [10000, 24] once, and for each half (200 rows) of an output block it stores

      tanh ( Σ_k leaky (h (y, k)) · W2 (k, j) + b2 j ),      h (y, k) = Σ_l a (y, l) · s (l, k) + b1 k,

  where a is the half's 200 rows of the adjacency matrix, s the kept product, and the biases are carried as one-row
  matrices [1, 24] and [1, 128]. Every step is read at one entry: a pointwise operation reads its operands at that entry,
  a one-row matrix broadcast over 200 rows reads its row, a cast to the same shape reads the same entry, and a product
  into a zero accumulator is the sum over the contraction coordinate. The leaky unit is the strict test against the zero
  word with the slope word on the other branch, which is the specification's unit word for word, so neither word is
  ever evaluated.
-/
import proofs.«168579_g5626407157816_cont_9to1c4b_88_12_alg».proof.Proof.Gen.KernelIdeal.Skeleton
import proofs.«168579_g5626407157816_cont_9to1c4b_88_12_alg».proof.Proof.Spec
import proofs.«168579_g5626407157816_cont_9to1c4b_88_12_alg».proof.Proof.LibPlainDot
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PayValue

open Idealize.ShloMosaic Idealize.ShloMosaic.ValueIdx Cert.KernelIdeal Cert.KernelIdeal.Gen

variable [Cert.KernelIdeal.Facts]

/-- The kept product x · W1 at (l, k). -/
theorem pay2_apply (x : Vec Ideal S10000x128 .f32) (w1 : Vec Ideal S128x24 .f32) (l : Fin 10000) (k : Fin 24) :
    k0_pay2 (F := Ideal) x w1 (ix2 l k) = ∑ m : Fin 128, x (ix2 l m) * w1 (ix2 m k) := by
  unfold k0_pay2
  refine (congrFun (shapeCast_self _ _) (ix2 l k)).trans ?_
  exact Cert.Lib.PlainDot.matmul_zero_apply _ rfl none x w1 l k

/-- The second half's pre-activation at (y, k): the half's row of the adjacency matrix against the kept product, plus the bias. -/
theorem pay4_apply (a : Vec Ideal S200x10000 .f32) (s : Vec Ideal S10000x24 .f32) (b1r : Vec Ideal S1x24 .f32)
    (y : Fin 200) (k : Fin 24) :
    k0_pay4 (F := Ideal) a s b1r (ix2 y k) = (∑ l : Fin 10000, a (ix2 y l) * s (ix2 l k)) + b1r (ix2 0 k) := by
  unfold k0_pay4
  refine (addf_apply _ _ _).trans ?_
  refine congrArg₂ (· + ·) (Cert.Lib.PlainDot.matmul_zero_apply _ rfl none a s y k) ?_
  refine (broadcastTo_1b_ab_apply _ _ y k).trans ?_
  exact congrFun (shapeCast_self b1r _) (ix2 0 k)

/-- A half's stored value at (y, j), as a function of its pre-activation h: the leaky unit on h's row, against W2's
    column, plus the bias, through tanh. The second half's body computes exactly this from h and the zero vector. -/
theorem pay1_of_pre (h : FVec Ideal S200x24 .f32) (w2 : Vec Ideal S24x128 .f32) (b2r : Vec Ideal S1x128 .f32)
    (y : Fin 200) (j : Fin 128) :
    k0_pay1 (F := Ideal) h (k0_pay5 (F := Ideal)) w2 b2r (ix2 y j)
      = Ideal.tanh ((∑ k : Fin 24, Cert.Spec.leaky (h (ix2 y k)) * w2 (ix2 k j)) + b2r (ix2 0 j)) := by
  unfold k0_pay1 k0_pay5
  refine congrArg Ideal.tanh ?_
  refine (addf_apply _ _ _).trans ?_
  refine congrArg₂ (· + ·) ?_ ?_
  · refine (Cert.Lib.PlainDot.matmul_zero_apply _ rfl none _ w2 y j).trans ?_
    refine Finset.sum_congr rfl fun k _ => ?_
    rfl
  · refine (broadcastTo_1b_ab_apply _ _ y j).trans ?_
    exact congrFun (shapeCast_self b2r _) (ix2 0 j)

/-- The first half's body is the second half's with its own pre-activation in place: the same operations in the same
    order, read at (y, j). -/
theorem pay3_eq_pay1 (a : Vec Ideal S200x10000 .f32) (s : Vec Ideal S10000x24 .f32) (b1r : Vec Ideal S1x24 .f32)
    (w2 : Vec Ideal S24x128 .f32) (b2r : Vec Ideal S1x128 .f32) (y : Fin 200) (j : Fin 128) :
    k0_pay3 (F := Ideal) a s b1r w2 b2r (ix2 y j)
      = k0_pay1 (F := Ideal) (k0_pay4 (F := Ideal) a s b1r) (k0_pay5 (F := Ideal)) w2 b2r (ix2 y j) := by
  unfold k0_pay3 k0_pay1 k0_pay4 k0_pay5
  rfl

/-- The second half's stored value at (y, j). -/
theorem pay1_apply (a : Vec Ideal S200x10000 .f32) (s : Vec Ideal S10000x24 .f32) (b1r : Vec Ideal S1x24 .f32)
    (w2 : Vec Ideal S24x128 .f32) (b2r : Vec Ideal S1x128 .f32) (y : Fin 200) (j : Fin 128) :
    k0_pay1 (F := Ideal) (k0_pay4 (F := Ideal) a s b1r) (k0_pay5 (F := Ideal)) w2 b2r (ix2 y j)
      = Ideal.tanh ((∑ k : Fin 24, Cert.Spec.leaky ((∑ l : Fin 10000, a (ix2 y l) * s (ix2 l k)) + b1r (ix2 0 k)) * w2 (ix2 k j))
          + b2r (ix2 0 j)) := by
  refine (pay1_of_pre _ w2 b2r y j).trans ?_
  refine congrArg (fun t => Ideal.tanh (t + b2r (ix2 0 j))) ?_
  refine Finset.sum_congr rfl fun k _ => ?_
  exact congrArg (fun t => Cert.Spec.leaky t * w2 (ix2 k j)) (pay4_apply a s b1r y k)

/-- The first half's stored value at (y, j). -/
theorem pay3_apply (a : Vec Ideal S200x10000 .f32) (s : Vec Ideal S10000x24 .f32) (b1r : Vec Ideal S1x24 .f32)
    (w2 : Vec Ideal S24x128 .f32) (b2r : Vec Ideal S1x128 .f32) (y : Fin 200) (j : Fin 128) :
    k0_pay3 (F := Ideal) a s b1r w2 b2r (ix2 y j)
      = Ideal.tanh ((∑ k : Fin 24, Cert.Spec.leaky ((∑ l : Fin 10000, a (ix2 y l) * s (ix2 l k)) + b1r (ix2 0 k)) * w2 (ix2 k j))
          + b2r (ix2 0 j)) :=
  (pay3_eq_pay1 a s b1r w2 b2r y j).trans (pay1_apply a s b1r w2 b2r y j)

end Cert.KernelIdeal.PayValue

end
-- ==== Proof.KernBlocks.lean ====
/-
  The windows' blocks as entries of the program's arguments.

  Window w's block at grid point t is read off the window's array as the region finds it: entry y of the block is
  the array's entry at coordinate (block index) · (block size) + y on each axis. Five windows have the whole array
  as their one block (block index (0, 0) at every point): the feature matrix, W1, W2 and the two bias rows. The two
  windows on the adjacency matrix have 200-row blocks of full width, window 1 the block 2 t and window 2 the block
  2 t + 1 at point t, so their entry (y, l) is the matrix's entry (400 t + y, l) and (400 t + 200 + y, l). The
  block indices are decided once over the 25 grid points. The arrays of the first four are arguments of the
  program, which nothing before the region writes; the two bias rows are the one-row reshapes [n] → [1, n] of the
  bias arguments, whose entry (0, k) is the argument's entry k (the same row-major position).
-/
import proofs.«168579_g5626407157816_cont_9to1c4b_88_12_alg».proof.Proof.KernFrame
import Idealize.ShloMosaic.Lib.Pipeline.FrameBody
import Idealize.ShloMosaic.Lib.Pipeline.Frame
import Idealize.ShloMosaic.Lib.Ring
import Idealize.ShloMosaic.Lib.Tactic
import Idealize.ShloMosaic.Lib.ValueIdx
import Idealize.ShloMosaic.Lib.Pipeline.Value
import Idealize.ShloMosaic.Lib.ValueLayout
import Idealize.ShloMosaic.Lib.StableHlo.Run

set_option maxRecDepth 16384

noncomputable section

namespace Cert.KernelIdeal.HandBlocks

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.KernelIdeal.Hand Idealize.ShloMosaic.ValueIdx

variable {F : FTy → Type} [FloatOps F]

local notation "𝕄" => MT nD τ sig Unit (Elt F) ℕ (UR sig nD τ) ℕ

variable (m : (ℓ : Loc nD τ sig) → Buf (Elt F) ℓ)

/-- The index maps of the windows whose block is the whole array, decided over the grid: block (0, 0) at every point. -/
theorem idx_whole : ∀ t : Fin cfg0.N, win0_0.index t (0 : Fin 2) = 0 ∧ win0_0.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- The feature matrix's block is the argument, entry by entry. -/
theorem blk0 (c : Dev nD) (t : Fin cfg0.N) (l : Fin 10000) (j : Fin 128) :
    iblk m c 0 t (ix2 l j) = m ((c.tc : Thread nD τ).loc main_arg0) (ix2 l j) := by
  obtain ⟨e0, e1, -⟩ := idx_whole t
  unfold iblk
  show V m c main_arg0 (((cfg0.win 0).blk t).view.emb (ix2 l j)) = _
  rw [V_main_arg0]
  refine congrArg (m ((c.tc : Thread nD τ).loc main_arg0)) (funext fun a => Fin.ext ?_)
  match a with
  | ⟨0, _⟩ => show win0_0.index t (0 : Fin 2) * 10000 + 1 * l.val = l.val; omega
  | ⟨1, _⟩ => show win0_0.index t (1 : Fin 2) * 128 + 1 * j.val = j.val; omega

/-- W1's block is the argument, entry by entry. -/
theorem blk3 (c : Dev nD) (t : Fin cfg0.N) (j : Fin 128) (k : Fin 24) :
    iblk m c 3 t (ix2 j k) = m ((c.tc : Thread nD τ).loc main_arg2) (ix2 j k) := by
  obtain ⟨-, -, e0, e1, -⟩ := idx_whole t
  unfold iblk
  show V m c main_arg2 (((cfg0.win 3).blk t).view.emb (ix2 j k)) = _
  rw [V_main_arg2]
  refine congrArg (m ((c.tc : Thread nD τ).loc main_arg2)) (funext fun a => Fin.ext ?_)
  match a with
  | ⟨0, _⟩ => show win0_3.index t (0 : Fin 2) * 128 + 1 * j.val = j.val; omega
  | ⟨1, _⟩ => show win0_3.index t (1 : Fin 2) * 24 + 1 * k.val = k.val; omega

/-- W2's block is the argument, entry by entry. -/
theorem blk5 (c : Dev nD) (t : Fin cfg0.N) (k : Fin 24) (j : Fin 128) :
    iblk m c 5 t (ix2 k j) = m ((c.tc : Thread nD τ).loc main_arg4) (ix2 k j) := by
  obtain ⟨-, -, -, -, -, -, e0, e1, -⟩ := idx_whole t
  unfold iblk
  show V m c main_arg4 (((cfg0.win 5).blk t).view.emb (ix2 k j)) = _
  rw [V_main_arg4]
  refine congrArg (m ((c.tc : Thread nD τ).loc main_arg4)) (funext fun a => Fin.ext ?_)
  match a with
  | ⟨0, _⟩ => show win0_5.index t (0 : Fin 2) * 24 + 1 * k.val = k.val; omega
  | ⟨1, _⟩ => show win0_5.index t (1 : Fin 2) * 128 + 1 * j.val = j.val; omega

/-- The index maps of the two windows on the adjacency matrix, decided over the grid: at point t the 200-row blocks
    2 t and 2 t + 1, full width. -/
theorem idx_adj : ∀ t : Fin cfg0.N, win0_1.index t (0 : Fin 2) = 2 * t.val ∧ win0_1.index t (1 : Fin 2) = 0
    ∧ win0_2.index t (0 : Fin 2) = 2 * t.val + 1 ∧ win0_2.index t (1 : Fin 2) = 0 :=
  (by decide +kernel : ∀ t : Fin grid0.N, _)

/-- Window 1's block at point t is rows 400 t … 400 t + 199 of the adjacency matrix. -/
theorem blk1 (c : Dev nD) (t : Fin cfg0.N) (y : Fin 200) (l : Fin 10000) :
    iblk m c 1 t (ix2 y l) = m ((c.tc : Thread nD τ).loc main_arg1)
      (ix2 (⟨400 * t.val + y.val, by have := lt_of_lt_of_eq t.isLt N_0; have := y.isLt; omega⟩ : Fin 10000) l) := by
  obtain ⟨e0, e1, -⟩ := idx_adj t
  unfold iblk
  show V m c main_arg1 (((cfg0.win 1).blk t).view.emb (ix2 y l)) = _
  rw [V_main_arg1]
  refine congrArg (m ((c.tc : Thread nD τ).loc main_arg1)) (funext fun a => Fin.ext ?_)
  match a with
  | ⟨0, _⟩ => show win0_1.index t (0 : Fin 2) * 200 + 1 * y.val = 400 * t.val + y.val; omega
  | ⟨1, _⟩ => show win0_1.index t (1 : Fin 2) * 10000 + 1 * l.val = l.val; omega

/-- Window 2's block at point t is rows 400 t + 200 … 400 t + 399 of the adjacency matrix. -/
theorem blk2 (c : Dev nD) (t : Fin cfg0.N) (y : Fin 200) (l : Fin 10000) :
    iblk m c 2 t (ix2 y l) = m ((c.tc : Thread nD τ).loc main_arg1)
      (ix2 (⟨400 * t.val + 200 + y.val, by have := lt_of_lt_of_eq t.isLt N_0; have := y.isLt; omega⟩ : Fin 10000) l) := by
  obtain ⟨-, -, e0, e1⟩ := idx_adj t
  unfold iblk
  show V m c main_arg1 (((cfg0.win 2).blk t).view.emb (ix2 y l)) = _
  rw [V_main_arg1]
  refine congrArg (m ((c.tc : Thread nD τ).loc main_arg1)) (funext fun a => Fin.ext ?_)
  match a with
  | ⟨0, _⟩ => show win0_2.index t (0 : Fin 2) * 200 + 1 * y.val = 400 * t.val + 200 + y.val; omega
  | ⟨1, _⟩ => show win0_2.index t (1 : Fin 2) * 10000 + 1 * l.val = l.val; omega

/-- The first bias row's block is the one-row reshape of the bias argument: entry (0, k) is the argument's entry k. -/
theorem blk4 (c : Dev nD) (t : Fin cfg0.N) (k : Fin 24) :
    iblk m c 4 t (ix2 (0 : Fin 1) k) = m ((c.tc : Thread nD τ).loc main_arg3) (ix1 k) := by
  obtain ⟨-, -, -, -, e0, e1, -⟩ := idx_whole t
  unfold iblk
  show V m c main_v0 (((cfg0.win 4).blk t).view.emb (ix2 (0 : Fin 1) k)) = _
  have ei : ((cfg0.win 4).blk t).view.emb (ix2 (0 : Fin 1) k) = ix2 (0 : Fin 1) k := funext fun a => Fin.ext (by
    match a with
    | ⟨0, _⟩ => show win0_4.index t (0 : Fin 2) * 1 + 1 * 0 = 0; omega
    | ⟨1, _⟩ => show win0_4.index t (1 : Fin 2) * 24 + 1 * k.val = k.val; omega)
  rw [ei]
  have e : (V m c main_v0 : S1x24.Idx → Elt F .f32)
      = shapeCast S1x24 (m ((c.tc : Thread nD τ).loc main_arg3)) Facts₀.shapeCasts_S24_S1x24 := by
    dsimp only [Hand.V, Gen.hostOps0]
    after_results
    rfl
  rw [e]
  exact shapeCast_a_1a_apply _ _ 0 k

/-- The second bias row's block is the one-row reshape of the bias argument: entry (0, j) is the argument's entry j. -/
theorem blk6 (c : Dev nD) (t : Fin cfg0.N) (j : Fin 128) :
    iblk m c 6 t (ix2 (0 : Fin 1) j) = m ((c.tc : Thread nD τ).loc main_arg5) (ix1 j) := by
  obtain ⟨-, -, -, -, -, -, -, -, e0, e1⟩ := idx_whole t
  unfold iblk
  show V m c main_v1 (((cfg0.win 6).blk t).view.emb (ix2 (0 : Fin 1) j)) = _
  have ei : ((cfg0.win 6).blk t).view.emb (ix2 (0 : Fin 1) j) = ix2 (0 : Fin 1) j := funext fun a => Fin.ext (by
    match a with
    | ⟨0, _⟩ => show win0_6.index t (0 : Fin 2) * 1 + 1 * 0 = 0; omega
    | ⟨1, _⟩ => show win0_6.index t (1 : Fin 2) * 128 + 1 * j.val = j.val; omega)
  rw [ei]
  have e : (V m c main_v1 : S1x128.Idx → Elt F .f32)
      = shapeCast S1x128 (m ((c.tc : Thread nD τ).loc main_arg5)) Facts₀.shapeCasts_S128_S1x128 := by
    dsimp only [Hand.V, Gen.hostOps0]
    after_results
    rfl
  rw [e]
  exact shapeCast_a_1a_apply _ _ 0 j

end Cert.KernelIdeal.HandBlocks

end
-- ==== Proof.KernValue.lean ====
/-
  The kernel's output array, after its launch, is the graph-convolution layer of the six arguments, entry by
  entry on the extended reals.

  The launch has 25 grid points. Point t writes back one 400-row block of the output: rows 400 t … 400 t + 399. The
  body fills that block by two stores of 200 rows each; both apply one formula,

      tanh ( Σ_k leaky ( Σ_l a (y, l) · s (l, k) + b1 k ) · W2 (k, j) + b2 j ),

  to their own 200 rows a of the adjacency matrix and to the kept product s = x · W1, which the first point stores
  into a scratch and every later point reads back. So the proof has four steps. First, what each run of the body
  leaves in the scratch and in the output buffer is read off its stores: the scratch is the product, the output
  buffer is the two stores laid one under the other. Second, an entry of that buffer is the formula at its row:
  rows below 200 come from the first store, the others from the second. Third, with the blocks the launch hands the
  body identified with rows of the arguments, the formula at row r of block t is the layer's entry at row
  400 t + r. Fourth, the blocks tile the array (row i lies in block i / 400), so the array is the layer.
-/
import proofs.«168579_g5626407157816_cont_9to1c4b_88_12_alg».proof.Proof.KernFrame
import proofs.«168579_g5626407157816_cont_9to1c4b_88_12_alg».proof.Proof.KernPay
import proofs.«168579_g5626407157816_cont_9to1c4b_88_12_alg».proof.Proof.KernBlocks
import proofs.«168579_g5626407157816_cont_9to1c4b_88_12_alg».proof.Proof.Spec
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.Tactic
open Idealize.ShloMosaic.Pipeline (Dat)

namespace Cert.KernelIdeal.HandValue

open Cert.KernelIdeal Cert.KernelIdeal.Gen Cert.KernelIdeal.Hand Idealize.ShloMosaic.ValueIdx

variable {F : FTy → Type} [FloatOps F]

theorem hz : (![0, 0] : Fin 2 → Nat) = fun _ => 0 := funext fun a => by fin_cases a <;> rfl

/-! ## What the two runs leave, as canons of their stores -/

/-- The two stores into the 400-row output block, last first: rows 200–399, then rows 0–199, each the body's
    stored value of its half's adjacency rows, the kept product and the small operands. -/
def outPieces (a1 a2 : Vec F S200x10000 .f32) (s : Vec F S10000x24 .f32) (b1r : Vec F S1x24 .f32)
    (w2 : Vec F S24x128 .f32) (b2r : Vec F S1x128 .f32) : List (View.Piece (Elt F) S400x128 .f32) :=
  [⟨Rect.unit (s := S400x128) ![200, 0] S200x128.size Facts₀.inb_S400x128_S200x128_200_0, k0_pay1 (k0_pay4 a2 s b1r) (k0_pay5 (F := F)) w2 b2r⟩,
   ⟨Rect.unit (s := S400x128) ![0, 0] S200x128.size Facts₀.inb_S400x128_S200x128_0_0, k0_pay3 a1 s b1r w2 b2r⟩]

/-- The first point leaves x · W1 in the scratch. -/
theorem scrFirst_eq (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x24 .f32) (harg4 : arg4.IsWhole) (arg5 : Memref sig .tc .vmem S1x24 .f32) (harg5 : arg5.IsWhole) (arg6 : Memref sig .tc .vmem S24x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x24 .f32) (harg9 : arg9.IsWhole) (hc : cond0 i) (x0 : Vec F S10000x128 .f32) (x1 : Vec F S200x10000 .f32) (x2 : Vec F S200x10000 .f32) (x3 : Vec F S128x24 .f32) (x4 : Vec F S1x24 .f32) (x5 : Vec F S24x128 .f32) (x6 : Vec F S1x128 .f32) :
    scrFirst c i arg1 harg1 arg2 harg2 arg3 harg3 arg4 harg4 arg5 harg5 arg6 harg6 arg7 harg7 arg8 harg8 arg9 harg9 hc x0 x1 x2 x3 x4 x5 x6 = k0_pay2 x0 x3 := by
  unfold scrFirst
  rw [View.read_writes_junk_eq_canon]
  unfold runFirst
  dsimp only
  sl_unfold_words
  rw [View.canon_unit_zero hz]
  simp only [View.readAt_eq_ld, harg1.read_unread, harg4.read_unread, View.ld_unit_zero (S := S10000x128) hz,
    View.ld_unit_zero (S := S128x24) hz]

/-- A later point leaves the two halves computed from the scratch it was handed. -/
theorem outLater_eq (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x24 .f32) (harg4 : arg4.IsWhole) (arg5 : Memref sig .tc .vmem S1x24 .f32) (harg5 : arg5.IsWhole) (arg6 : Memref sig .tc .vmem S24x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x24 .f32) (harg9 : arg9.IsWhole) (hc : ¬cond0 i) (x0 : Vec F S10000x128 .f32) (x1 : Vec F S200x10000 .f32) (x2 : Vec F S200x10000 .f32) (x3 : Vec F S128x24 .f32) (x4 : Vec F S1x24 .f32) (x5 : Vec F S24x128 .f32) (x6 : Vec F S1x128 .f32) (xs : Vec F S10000x24 .f32) :
    outLater c i arg1 harg1 arg2 harg2 arg3 harg3 arg4 harg4 arg5 harg5 arg6 harg6 arg7 harg7 arg8 harg8 arg9 harg9 hc x0 x1 x2 x3 x4 x5 x6 xs = View.canon (outPieces x1 x2 xs x4 x5 x6) := by
  unfold outLater
  rw [View.read_writes_junk_eq_canon]
  unfold runLater
  dsimp only
  sl_unfold_words
  simp only [View.readAt_eq_ld, harg2.read_unread, harg3.read_unread, harg5.read_unread, harg6.read_unread,
    harg7.read_unread, harg9.read_unread, View.ld_unit_zero (S := S200x10000) hz, View.ld_unit_zero (S := S10000x24) hz,
    View.ld_unit_zero (S := S1x24) hz, View.ld_unit_zero (S := S24x128) hz, View.ld_unit_zero (S := S1x128) hz]
  rfl

/-- The first point leaves the two halves computed from the product it has just stored. -/
theorem outFirst_eq (c : Dev nD) (i : grid0.Coords) (arg1 : Memref sig .tc .vmem S10000x128 .f32) (harg1 : arg1.IsWhole) (arg2 : Memref sig .tc .vmem S200x10000 .f32) (harg2 : arg2.IsWhole) (arg3 : Memref sig .tc .vmem S200x10000 .f32) (harg3 : arg3.IsWhole) (arg4 : Memref sig .tc .vmem S128x24 .f32) (harg4 : arg4.IsWhole) (arg5 : Memref sig .tc .vmem S1x24 .f32) (harg5 : arg5.IsWhole) (arg6 : Memref sig .tc .vmem S24x128 .f32) (harg6 : arg6.IsWhole) (arg7 : Memref sig .tc .vmem S1x128 .f32) (harg7 : arg7.IsWhole) (arg8 : Memref sig .tc .vmem S400x128 .f32) (harg8 : arg8.IsWhole) (arg9 : Memref sig .tc .vmem S10000x24 .f32) (harg9 : arg9.IsWhole) (hc : cond0 i) (x0 : Vec F S10000x128 .f32) (x1 : Vec F S200x10000 .f32) (x2 : Vec F S200x10000 .f32) (x3 : Vec F S128x24 .f32) (x4 : Vec F S1x24 .f32) (x5 : Vec F S24x128 .f32) (x6 : Vec F S1x128 .f32) :
    outFirst c i arg1 harg1 arg2 harg2 arg3 harg3 arg4 harg4 arg5 harg5 arg6 harg6 arg7 harg7 arg8 harg8 arg9 harg9 hc x0 x1 x2 x3 x4 x5 x6 = View.canon (outPieces x1 x2 (k0_pay2 x0 x3) x4 x5 x6) := by
  unfold outFirst
  rw [View.read_writes_junk_eq_canon]
  unfold runFirst
  dsimp only
  sl_unfold_words
  rw [View.readCov_unit_zero (S := S10000x24) _ hz]
  simp only [View.readAt_eq_ld, harg1.read_unread, harg2.read_unread, harg3.read_unread, harg4.read_unread, harg5.read_unread,
    harg6.read_unread, harg7.read_unread, View.ld_unit_zero (S := S10000x128) hz, View.ld_unit_zero (S := S128x24) hz,
    View.ld_unit_zero (S := S200x10000) hz,
    View.ld_unit_zero (S := S1x24) hz, View.ld_unit_zero (S := S24x128) hz, View.ld_unit_zero (S := S1x128) hz]
  rfl

/-! ## The two halves of the output block, at an entry -/

/-- Entry (y, j) of the upper half (rows 0–199) is the first store's value at (y, j). -/
theorem outPieces_lo (a1 a2 : Vec F S200x10000 .f32) (s : Vec F S10000x24 .f32) (b1r : Vec F S1x24 .f32)
    (w2 : Vec F S24x128 .f32) (b2r : Vec F S1x128 .f32) (y : Fin 200) (j : Fin 128) (r : Fin 400) (hr : r.val = y.val) :
    View.canon (outPieces a1 a2 s b1r w2 b2r) (ix2 r j) = k0_pay3 a1 s b1r w2 b2r (ix2 y j) := by
  unfold outPieces
  have hn : (ix2 r j : S400x128.Idx) ∉ (Rect.unit (s := S400x128) ![200, 0] S200x128.size Facts₀.inb_S400x128_S200x128_200_0).set := by
    rw [Rect.mem_set_unit]
    intro h
    have h0 := (h 0).1
    have : (200 : ℕ) ≤ r.val := h0
    have := y.isLt
    omega
  refine (View.canon_cons_of_not_mem
    (⟨Rect.unit (s := S400x128) ![200, 0] S200x128.size Facts₀.inb_S400x128_S200x128_200_0, k0_pay1 (k0_pay4 a2 s b1r) (k0_pay5 (F := F)) w2 b2r⟩ : View.Piece (Elt F) S400x128 .f32)
    [(⟨Rect.unit (s := S400x128) ![0, 0] S200x128.size Facts₀.inb_S400x128_S200x128_0_0, k0_pay3 a1 s b1r w2 b2r⟩ : View.Piece (Elt F) S400x128 .f32)] hn).trans ?_
  have e : (Rect.unit (s := S400x128) ![0, 0] S200x128.size Facts₀.inb_S400x128_S200x128_0_0).emb (ix2 y j) = ix2 r j :=
    funext fun a => Fin.ext (by
      match a with
      | ⟨0, _⟩ => show 0 + 1 * y.val = r.val; omega
      | ⟨1, _⟩ => show 0 + 1 * j.val = j.val; omega)
  rw [← e]
  exact View.canon_cons_emb _ _ _ _

/-- Entry (200 + y, j) of the lower half (rows 200–399) is the second store's value at (y, j). -/
theorem outPieces_hi (a1 a2 : Vec F S200x10000 .f32) (s : Vec F S10000x24 .f32) (b1r : Vec F S1x24 .f32)
    (w2 : Vec F S24x128 .f32) (b2r : Vec F S1x128 .f32) (y : Fin 200) (j : Fin 128) (r : Fin 400) (hr : r.val = 200 + y.val) :
    View.canon (outPieces a1 a2 s b1r w2 b2r) (ix2 r j) = k0_pay1 (k0_pay4 a2 s b1r) (k0_pay5 (F := F)) w2 b2r (ix2 y j) := by
  unfold outPieces
  have e : (Rect.unit (s := S400x128) ![200, 0] S200x128.size Facts₀.inb_S400x128_S200x128_200_0).emb (ix2 y j) = ix2 r j :=
    funext fun a => Fin.ext (by
      match a with
      | ⟨0, _⟩ => show 200 + 1 * y.val = r.val; omega
      | ⟨1, _⟩ => show 0 + 1 * j.val = j.val; omega)
  rw [← e]
  exact View.canon_cons_emb _ _ _ _

/-! ## A whole output block is 400 rows of the layer -/

section AtIdeal

/-- The output block, entry (r, j), is the layer's entry (R + r, j) when the two adjacency blocks are rows
    R … R + 199 and R + 200 … R + 399 of the adjacency matrix, the kept product is x · W1, and the bias rows are the
    bias vectors. The two halves are the same formula on their own rows. -/
theorem block_entry (X : (⟨2, ![10000, 128]⟩ : Shape).Idx → EReal) (ADJ : (⟨2, ![10000, 10000]⟩ : Shape).Idx → EReal)
    (W1 : (⟨2, ![128, 24]⟩ : Shape).Idx → EReal) (B1 : (⟨1, ![24]⟩ : Shape).Idx → EReal)
    (W2 : (⟨2, ![24, 128]⟩ : Shape).Idx → EReal) (B2 : (⟨1, ![128]⟩ : Shape).Idx → EReal)
    (R : ℕ) (hR : R + 400 ≤ 10000)
    (a1 a2 : Vec Ideal S200x10000 .f32) (s : Vec Ideal S10000x24 .f32) (b1r : Vec Ideal S1x24 .f32)
    (w2 : Vec Ideal S24x128 .f32) (b2r : Vec Ideal S1x128 .f32)
    (h1 : ∀ (y : Fin 200) (l : Fin 10000), a1 (ix2 y l) = ADJ (ix2 (⟨R + y.val, by have := y.isLt; omega⟩ : Fin 10000) l))
    (h2 : ∀ (y : Fin 200) (l : Fin 10000), a2 (ix2 y l) = ADJ (ix2 (⟨R + 200 + y.val, by have := y.isLt; omega⟩ : Fin 10000) l))
    (hs : ∀ (l : Fin 10000) (k : Fin 24), s (ix2 l k) = Cert.Spec.support X W1 l k)
    (hb1 : ∀ k : Fin 24, b1r (ix2 (0 : Fin 1) k) = B1 (ix1 k))
    (hw2 : ∀ (k : Fin 24) (j : Fin 128), w2 (ix2 k j) = W2 (ix2 k j))
    (hb2 : ∀ j : Fin 128, b2r (ix2 (0 : Fin 1) j) = B2 (ix1 j))
    (r : Fin 400) (j : Fin 128) :
    View.canon (outPieces (F := Ideal) a1 a2 s b1r w2 b2r) (ix2 r j)
      = Cert.Spec.out X ADJ W1 B1 W2 B2 (⟨R + r.val, by have := r.isLt; omega⟩ : Fin 10000) j := by
  by_cases hlt : r.val < 200
  · rw [outPieces_lo a1 a2 s b1r w2 b2r ⟨r.val, hlt⟩ j r rfl, Cert.KernelIdeal.PayValue.pay3_apply]
    unfold Cert.Spec.out Cert.Spec.hidden
    simp only [h1, hs, hb1, hw2, hb2]
  · have hge : r.val - 200 < 200 := by have := r.isLt; omega
    rw [outPieces_hi a1 a2 s b1r w2 b2r ⟨r.val - 200, hge⟩ j r (by show r.val = 200 + (r.val - 200); omega),
      Cert.KernelIdeal.PayValue.pay1_apply]
    unfold Cert.Spec.out Cert.Spec.hidden
    simp only [h2, hs, hb1, hw2, hb2]
    have e : (⟨R + 200 + (r.val - 200), by omega⟩ : Fin 10000) = ⟨R + r.val, by have := r.isLt; omega⟩ := Fin.ext (by show R + 200 + (r.val - 200) = R + r.val; omega)
    simp only [e]

end AtIdeal

/-! ## The launch's blocks are the arguments' rows -/

section Launch

open Cert.KernelIdeal.HandBlocks

variable (m : (ℓ : Loc nD τ sig) → Buf (Elt Ideal) ℓ)

/-- The scratch after the first point is x · W1 of the arguments. -/
theorem scr_entry (c : Dev nD) (l : Fin 10000) (k : Fin 24) :
    scr m c (ix2 l k) = Cert.Spec.support (m ((c.tc : Thread nD τ).loc main_arg0)) (m ((c.tc : Thread nD τ).loc main_arg2)) l k := by
  unfold scr
  rw [scrFirst_eq, Cert.KernelIdeal.PayValue.pay2_apply]
  unfold Cert.Spec.support
  simp only [blk0, blk3]

/-- What point t leaves in the output buffer, entry (r, j), is the layer's entry (400 t + r, j). -/
theorem out7_entry (c : Dev nD) (t : Fin cfg0.N)
    (hb4 : ∀ k : Fin 24, iblk m c 4 t (ix2 (0 : Fin 1) k) = (m ((c.tc : Thread nD τ).loc main_arg3)) (ix1 k))
    (hb6 : ∀ j : Fin 128, iblk m c 6 t (ix2 (0 : Fin 1) j) = (m ((c.tc : Thread nD τ).loc main_arg5)) (ix1 j))
    (r : Fin 400) (j : Fin 128) :
    out7 m c t (ix2 r j)
      = Cert.Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
          (⟨400 * t.val + r.val, by have := lt_of_lt_of_eq t.isLt N_0; have := r.isLt; omega⟩ : Fin 10000) j := by
  have hN : t.val < 25 := lt_of_lt_of_eq t.isLt N_0
  by_cases hz0 : t.val = 0
  · rw [out7_first m c t hz0, outFirst_eq]
    exact block_entry (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (400 * t.val) (by omega)
      (iblk m c 1 t) (iblk m c 2 t) (k0_pay2 (iblk m c 0 t) (iblk m c 3 t)) (iblk m c 4 t) (iblk m c 5 t) (iblk m c 6 t)
      (blk1 m c t) (blk2 m c t)
      (fun l k => by
        rw [Cert.KernelIdeal.PayValue.pay2_apply]
        unfold Cert.Spec.support
        simp only [blk0, blk3])
      hb4 (blk5 m c t) hb6 r j
  · rw [out7_later m c t hz0, outLater_eq]
    exact block_entry (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (400 * t.val) (by omega)
      (iblk m c 1 t) (iblk m c 2 t) (scr m c) (iblk m c 4 t) (iblk m c 5 t) (iblk m c 6 t)
      (blk1 m c t) (blk2 m c t) (scr_entry m c) hb4 (blk5 m c t) hb6 r j

end Launch

/-! ## From the blocks to the array -/

section Array

open Cert.KernelIdeal.HandBlocks

variable (m : (ℓ : Loc nD τ sig) → Buf (Elt Ideal) ℓ)

/-- The output window's index map, decided over the grid: at point t the 400-row block t, full width. -/
theorem idx_out : ∀ t : Fin cfg0.N, win0_7.index t (0 : Fin 2) = t.val ∧ win0_7.index t (1 : Fin 2) = 0 :=
  (by decide +kernel : ∀ t : Fin grid0.N, _)

/-- The layer's entry depends on its coordinates only through their values. -/
theorem out_congr (X : (⟨2, ![10000, 128]⟩ : Shape).Idx → EReal) (ADJ : (⟨2, ![10000, 10000]⟩ : Shape).Idx → EReal)
    (W1 : (⟨2, ![128, 24]⟩ : Shape).Idx → EReal) (B1 : (⟨1, ![24]⟩ : Shape).Idx → EReal)
    (W2 : (⟨2, ![24, 128]⟩ : Shape).Idx → EReal) (B2 : (⟨1, ![128]⟩ : Shape).Idx → EReal)
    (p p' : Fin 10000) (q q' : Fin 128) (hp : p.val = p'.val) (hq : q.val = q'.val) :
    Cert.Spec.out X ADJ W1 B1 W2 B2 p q = Cert.Spec.out X ADJ W1 B1 W2 B2 p' q' := by
  obtain rfl := Fin.ext hp
  obtain rfl := Fin.ext hq
  rfl

/-- What point t writes back is block t of the layer of the arguments. -/
theorem flushed_eq (c : Dev nD) (t : Fin cfg0.N)
    (hb4 : ∀ k : Fin 24, iblk m c 4 t (ix2 (0 : Fin 1) k) = (m ((c.tc : Thread nD τ).loc main_arg3)) (ix1 k))
    (hb6 : ∀ j : Fin 128, iblk m c 6 t (ix2 (0 : Fin 1) j) = (m ((c.tc : Thread nD τ).loc main_arg5)) (ix1 j)) :
    (dats (F := Ideal) m 0 c).flushed 7 t
      = ((cfg0.win 7).blk t).view.read (Elt Ideal) (Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) := by
  obtain ⟨e0, e1⟩ := idx_out t
  funext y
  rw [View.read_apply]
  show (dats (F := Ideal) m 0 c).after 7 t ((cfg0.win 7).xinj (grid0.coords t) y)
    = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (((cfg0.win 7).blk t).view.emb y)
  rw [after7]
  have hy0 : (y 0).val < 400 := (y 0).isLt
  have hy1 : (y 1).val < 128 := (y 1).isLt
  have ex : (cfg0.win 7).xinj (grid0.coords t) y = ix2 (⟨(y 0).val, hy0⟩ : Fin 400) (⟨(y 1).val, hy1⟩ : Fin 128) :=
    funext fun a => by
      match a with
      | ⟨0, _⟩ => rfl
      | ⟨1, _⟩ => rfl
  rw [ex, out7_entry m c t hb4 hb6]
  unfold Cert.Spec.G
  refine out_congr _ _ _ _ _ _ _ _ _ _ ?_ ?_
  · show 400 * t.val + (y 0).val = win0_7.index t (0 : Fin 2) * 400 + 1 * (y 0).val
    omega
  · show (y 1).val = win0_7.index t (1 : Fin 2) * 128 + 1 * (y 1).val
    omega

/-- An index of the array is in point t's block iff each coordinate is in the block's range on its axis. -/
theorem mem_blk7 (t : Fin cfg0.N) (i : S10000x128.Idx) :
    i ∈ ((cfg0.win 7).blk t).view.set ↔ ∀ a : Fin 2, win0_7.index t a * S400x128.size a ≤ (i a).val ∧ (i a).val < win0_7.index t a * S400x128.size a + S400x128.size a := by
  show i ∈ ((View.whole main_v2).slice (win0_7.rect t)).set ↔ _
  rw [View.set_slice_whole, Rect.mem_set_unit]
  exact Iff.rfl

/-- Every row of the array lies in the block of the point numbered by the row's quotient by 400. -/
theorem cover7 (i : S10000x128.Idx) :
    ∃ t : Fin cfg0.N, (cfg0.win 7).flush t = true ∧ i ∈ ((cfg0.win 7).blk t).view.set := by
  have hi0 : (i 0).val < 10000 := (i 0).isLt
  have hi1 : (i 1).val < 128 := (i 1).isLt
  have hN : cfg0.N = 25 := N_0
  let t : Fin cfg0.N := ⟨(i 0).val / 400, by rw [hN]; omega⟩
  obtain ⟨e0, e1⟩ := idx_out t
  have ht : t.val = (i 0).val / 400 := rfl
  refine ⟨t, flush0_7 t, ?_⟩
  rw [mem_blk7]
  intro a
  match a with
  | ⟨0, _⟩ => show win0_7.index t (0 : Fin 2) * 400 ≤ (i 0).val ∧ (i 0).val < win0_7.index t (0 : Fin 2) * 400 + 400; omega
  | ⟨1, _⟩ => show win0_7.index t (1 : Fin 2) * 128 ≤ (i 1).val ∧ (i 1).val < win0_7.index t (1 : Fin 2) * 128 + 128; omega

/-- The output array after the launch is the layer of the six arguments. -/
theorem final7_of (c : Dev nD)
    (hb4 : ∀ (t : Fin cfg0.N) (k : Fin 24), iblk m c 4 t (ix2 (0 : Fin 1) k) = (m ((c.tc : Thread nD τ).loc main_arg3)) (ix1 k))
    (hb6 : ∀ (t : Fin cfg0.N) (j : Fin 128), iblk m c 6 t (ix2 (0 : Fin 1) j) = (m ((c.tc : Thread nD τ).loc main_arg5)) (ix1 j)) :
    (dats (F := Ideal) m 0 c).arrAt 7 cfg0.N = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (dats (F := Ideal) m 0 c).arrAt_eq_of_cover 7 (Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))
    (fun t _ => flushed_eq m c t (hb4 t) (hb6 t)) (cover7)

end Array

/-- The output array after the launch is the layer of the six arguments. -/
theorem final7 (m : (ℓ : Loc nD τ sig) → Buf (Elt Ideal) ℓ) (c : Dev nD) :
    (dats (F := Ideal) m 0 c).arrAt 7 cfg0.N
      = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  final7_of m c (Cert.KernelIdeal.HandBlocks.blk4 m c) (Cert.KernelIdeal.HandBlocks.blk6 m c)

end Cert.KernelIdeal.HandValue

end
-- ==== Proof.RefRun.lean ====
/-
  The reference program's run, read back. Its @main is a straight line of eighteen host operations once the two
  module-local functions are unfolded at their calls (the leaky unit, and the selection inside it): six before the
  call, seven inside it, five after. Every weakly fair execution terminates with the result buffer at the
  operations' composed term of the six argument arrays, and the arguments unchanged.

  The composed term is named in three layers, so that the shared subterm (the pre-activation, read three times by
  the leaky unit) is written once:
    pre  = adj · (x · W1) + broadcast b1
    act  = select (pre ≥ 0) pre (broadcast slope · pre)
    res  = tanh (act · W2 + broadcast b2)
-/
import proofs.«168579_g5626407157816_cont_9to1c4b_88_12_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The pre-activation: adj · (x · W1) plus the bias row laid along every row. -/
def pre (x : FVec F S10000x128 .f32) (adj : FVec F S10000x10000 .f32) (W1 : FVec F S128x24 .f32) (b1 : FVec F S24 .f32) :
    FVec F S10000x24 .f32 :=
  addf (Host.dotGeneral dot_S10000x10000_S10000x24_S10000x24_1_0_0_1_n_n none adj
          (Host.dotGeneral dot_S10000x128_S128x24_S10000x24_1_0_0_1_n_n none x W1))
    (broadcastInDim S10000x24 ![0, 1] bcast_S1x24_S10000x24_0_1 (broadcastInDim S1x24 ![1] bcast_S24_S1x24_1 b1))

/-- The leaky unit on an array: where the entry is at least zero the entry, elsewhere the slope times it. -/
def act (h : FVec F S10000x24 .f32) : FVec F S10000x24 .f32 :=
  select (cmpf .oge h (broadcastInDim S10000x24 ![] bcast_S_S10000x24 (constant S_ .f32 0x00000000#32))) h
    (mulf (broadcastInDim S10000x24 ![] bcast_S_S10000x24 (id (constant S_ .f32 0x3C23D70A#32))) h)

/-- The result: tanh of the activated array times W2 plus the second bias row laid along every row. -/
def res (x : FVec F S10000x128 .f32) (adj : FVec F S10000x10000 .f32) (W1 : FVec F S128x24 .f32) (b1 : FVec F S24 .f32)
    (W2 : FVec F S24x128 .f32) (b2 : FVec F S128 .f32) : FVec F S10000x128 .f32 :=
  Host.tanh (addf (Host.dotGeneral dot_S10000x24_S24x128_S10000x128_1_0_0_1_n_n none (act (pre x adj W1 b1)) W2)
    (broadcastInDim S10000x128 ![0, 1] bcast_S1x128_S10000x128_0_1 (broadcastInDim S1x128 ![1] bcast_S128_S1x128_1 b2)))

/-- @main's eighteen operations in order, the two calls unfolded over the call's buffers. -/
abbrev ops : List (HloOp τ sig (Elt F)) :=
  [ binary main_arg0 main_arg2 main_v0 ((fun l r => Host.dotGeneral dot_S10000x128_S128x24_S10000x24_1_0_0_1_n_n none l r) : (⟨S10000x128, .f32⟩ : BufTy).Contents (Elt F) → (⟨S128x24, .f32⟩ : BufTy).Contents (Elt F) → (⟨S10000x24, .f32⟩ : BufTy).Contents (Elt F)),
    binary main_arg1 main_v0 main_v1 ((fun l r => Host.dotGeneral dot_S10000x10000_S10000x24_S10000x24_1_0_0_1_n_n none l r) : (⟨S10000x10000, .f32⟩ : BufTy).Contents (Elt F) → (⟨S10000x24, .f32⟩ : BufTy).Contents (Elt F) → (⟨S10000x24, .f32⟩ : BufTy).Contents (Elt F)),
    unary main_arg3 main_v2 (broadcastInDim S1x24 ![1] bcast_S24_S1x24_1 : (⟨S24, .f32⟩ : BufTy).Contents (Elt F) → (⟨S1x24, .f32⟩ : BufTy).Contents (Elt F)),
    unary main_v2 main_v3 (broadcastInDim S10000x24 ![0, 1] bcast_S1x24_S10000x24_0_1 : (⟨S1x24, .f32⟩ : BufTy).Contents (Elt F) → (⟨S10000x24, .f32⟩ : BufTy).Contents (Elt F)),
    binary main_v1 main_v3 main_v4 (addf : (⟨S10000x24, .f32⟩ : BufTy).Contents (Elt F) → (⟨S10000x24, .f32⟩ : BufTy).Contents (Elt F) → (⟨S10000x24, .f32⟩ : BufTy).Contents (Elt F)),
    nullary main_cst (constant S_ .f32 0x3C23D70A#32),
    nullary main_call0_cst (constant S_ .f32 0x00000000#32),
    unary main_call0_cst main_call0_v0 (broadcastInDim S10000x24 ![] bcast_S_S10000x24 : (⟨S_, .f32⟩ : BufTy).Contents (Elt F) → (⟨S10000x24, .f32⟩ : BufTy).Contents (Elt F)),
    binary main_v4 main_call0_v0 main_call0_v1 (cmpf .oge : (⟨S10000x24, .f32⟩ : BufTy).Contents (Elt F) → (⟨S10000x24, .f32⟩ : BufTy).Contents (Elt F) → (⟨S10000x24, .i1⟩ : BufTy).Contents (Elt F)),
    unary main_cst main_call0_v2 (id : (⟨S_, .f32⟩ : BufTy).Contents (Elt F) → (⟨S_, .f32⟩ : BufTy).Contents (Elt F)),
    unary main_call0_v2 main_call0_v3 (broadcastInDim S10000x24 ![] bcast_S_S10000x24 : (⟨S_, .f32⟩ : BufTy).Contents (Elt F) → (⟨S10000x24, .f32⟩ : BufTy).Contents (Elt F)),
    binary main_call0_v3 main_v4 main_call0_v4 (mulf : (⟨S10000x24, .f32⟩ : BufTy).Contents (Elt F) → (⟨S10000x24, .f32⟩ : BufTy).Contents (Elt F) → (⟨S10000x24, .f32⟩ : BufTy).Contents (Elt F)),
    ternary main_call0_v1 main_v4 main_call0_v4 main_v5 (select : (⟨S10000x24, .i1⟩ : BufTy).Contents (Elt F) → (⟨S10000x24, .f32⟩ : BufTy).Contents (Elt F) → (⟨S10000x24, .f32⟩ : BufTy).Contents (Elt F) → (⟨S10000x24, .f32⟩ : BufTy).Contents (Elt F)),
    binary main_v5 main_arg4 main_v6 ((fun l r => Host.dotGeneral dot_S10000x24_S24x128_S10000x128_1_0_0_1_n_n none l r) : (⟨S10000x24, .f32⟩ : BufTy).Contents (Elt F) → (⟨S24x128, .f32⟩ : BufTy).Contents (Elt F) → (⟨S10000x128, .f32⟩ : BufTy).Contents (Elt F)),
    unary main_arg5 main_v7 (broadcastInDim S1x128 ![1] bcast_S128_S1x128_1 : (⟨S128, .f32⟩ : BufTy).Contents (Elt F) → (⟨S1x128, .f32⟩ : BufTy).Contents (Elt F)),
    unary main_v7 main_v8 (broadcastInDim S10000x128 ![0, 1] bcast_S1x128_S10000x128_0_1 : (⟨S1x128, .f32⟩ : BufTy).Contents (Elt F) → (⟨S10000x128, .f32⟩ : BufTy).Contents (Elt F)),
    binary main_v6 main_v8 main_v9 (addf : (⟨S10000x128, .f32⟩ : BufTy).Contents (Elt F) → (⟨S10000x128, .f32⟩ : BufTy).Contents (Elt F) → (⟨S10000x128, .f32⟩ : BufTy).Contents (Elt F)),
    unary main_v9 main_v10 (Host.tanh : (⟨S10000x128, .f32⟩ : BufTy).Contents (Elt F) → (⟨S10000x128, .f32⟩ : BufTy).Contents (Elt F)) ]

/-- @main is that straight line: the functions unfolded at their calls and the call's record at its fields, the
    typed references' transports the identity at these literal references. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨binary_bufs_sub .., binary_bufs_sub .., unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub .., binary_bufs_sub .., unary_bufs_sub .., unary_bufs_sub .., binary_bufs_sub .., unary_bufs_sub ..⟩

/-- On every device, for any float values, from any memory with zero counters: every weakly fair execution of
    @main terminates with the result buffer at the operations' composed term of the arguments, and the six
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v10)
        = res (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v10).trans (by after_results; rfl),
      (h c main_arg0).trans (by after_results),
      (h c main_arg1).trans (by after_results),
      (h c main_arg2).trans (by after_results),
      (h c main_arg3).trans (by after_results),
      (h c main_arg4).trans (by after_results),
      (h c main_arg5).trans (by after_results)⟩)
    (run_seq scopedRefs_eq scopedSems_eq defs main (fun _ => ops) main_eq (fun _ => ops_sub) m ρ)

end Cert.ReferenceIdeal.RefRun

end
-- ==== Proof.RefValue.lean ====
/-
  The reference program's result is the graph-convolution layer of the specification, entry by entry on the
  extended reals.

  The reference's composed term has three layers (pre-activation, leaky unit, result). Each is read at an entry
  (p, k): a sum of two arrays reads both; a product of two matrices is the sum over the contraction index; a bias
  vector [n] made a row [1, n] and laid along every row [m, n] reads the vector at the column; a scalar broadcast
  reads the scalar; the selection on the test h ≥ 0 is the leaky unit of the specification, which tests h > 0,
  because the two tests differ only at h = 0, where both branches are 0.
-/
import proofs.«168579_g5626407157816_cont_9to1c4b_88_12_alg».proof.Proof.RefRun
import proofs.«168579_g5626407157816_cont_9to1c4b_88_12_alg».proof.Proof.Spec
import proofs.«168579_g5626407157816_cont_9to1c4b_88_12_alg».proof.Proof.LibPlainDot
import Idealize.ShloMosaic.Lib.IdealHost
import Idealize.ShloMosaic.Lib.KernelVsHost

noncomputable section

open scoped BigOperators

namespace Cert.ReferenceIdeal.RefValue

open Cert.ReferenceIdeal Cert.ReferenceIdeal.Gen Cert.ReferenceIdeal.RefRun
open Idealize.ShloMosaic Idealize.ShloMosaic.TcCoe Idealize.SL.Sem Idealize.ShloMosaic.ValueIdx

/-- A vector [n] made a one-row matrix [1, n] reads, at (0, t), the vector at t. -/
theorem rowOfVector_apply {α : Type} {n : Nat}
    (h : (⟨1, ![n]⟩ : Shape).BroadcastsInDim ⟨2, ![1, n]⟩ (![1] : Fin 1 → Fin (⟨2, ![1, n]⟩ : Shape).rank))
    (b : (⟨1, ![n]⟩ : Shape).Idx → α) (t : Fin n) :
    broadcastInDim ⟨2, ![1, n]⟩ ![1] h b (ix2 (0 : Fin 1) t) = b (ix1 t) := by
  refine broadcastInDim_apply ![1] h b (ix2 (0 : Fin 1) t) (ix1 t) ?_
  intro a
  fin_cases a
  show t.val = if n = 1 then 0 else t.val
  split_ifs with hn
  · have := t.isLt; omega
  · rfl

/-- A vector [n] made a row and laid along every one of m rows reads, at (r, t), the vector at t. -/
theorem biasRows_apply {α : Type} {m n : Nat}
    (h1 : (⟨1, ![n]⟩ : Shape).BroadcastsInDim ⟨2, ![1, n]⟩ (![1] : Fin 1 → Fin (⟨2, ![1, n]⟩ : Shape).rank))
    (h2 : (⟨2, ![1, n]⟩ : Shape).BroadcastsInDim ⟨2, ![m, n]⟩ ![0, 1])
    (b : (⟨1, ![n]⟩ : Shape).Idx → α) (r : Fin m) (t : Fin n) :
    broadcastInDim ⟨2, ![m, n]⟩ ![0, 1] h2 (broadcastInDim ⟨2, ![1, n]⟩ ![1] h1 b) (ix2 r t) = b (ix1 t) :=
  (broadcastInDim_oneRow_apply h2 _ r t).trans (rowOfVector_apply h1 b t)

/-- The pre-activation at (p, k) is the specification's hidden value. -/
theorem pre_apply (x : FVec Ideal S10000x128 .f32) (adj : FVec Ideal S10000x10000 .f32) (W1 : FVec Ideal S128x24 .f32)
    (b1 : FVec Ideal S24 .f32) (p : Fin 10000) (k : Fin 24) :
    pre (F := Ideal) x adj W1 b1 (ix2 p k) = Cert.Spec.hidden x adj W1 b1 p k := by
  unfold pre Cert.Spec.hidden Cert.Spec.support
  rw [addf_apply, biasRows_apply, Cert.Lib.PlainDot.dotGeneral_apply dot_S10000x10000_S10000x24_S10000x24_1_0_0_1_n_n rfl]
  refine congrArg (· + b1 (ix1 k)) (Finset.sum_congr rfl fun l _ => ?_)
  rw [Cert.Lib.PlainDot.dotGeneral_apply dot_S10000x128_S128x24_S10000x24_1_0_0_1_n_n rfl]

/-- The leaky unit on an array, at (p, k), is the specification's leaky unit of the entry. -/
theorem act_apply (h : FVec Ideal S10000x24 .f32) (p : Fin 10000) (k : Fin 24) :
    act (F := Ideal) h (ix2 p k) = Cert.Spec.leaky (h (ix2 p k)) := by
  unfold act
  rw [select_apply, cmpf_apply, mulf_apply, broadcastInDim_scalar_apply, broadcastInDim_scalar_apply, id, constant_apply,
    constant_apply]
  exact Cert.Spec.leaky_of_ge (h (ix2 p k))

/-- The reference's composed term is the specification's function of the six argument arrays. -/
theorem result_eq (x : FVec Ideal S10000x128 .f32) (adj : FVec Ideal S10000x10000 .f32) (W1 : FVec Ideal S128x24 .f32)
    (b1 : FVec Ideal S24 .f32) (W2 : FVec Ideal S24x128 .f32) (b2 : FVec Ideal S128 .f32) :
    res (F := Ideal) x adj W1 b1 W2 b2 = Cert.Spec.G x adj W1 b1 W2 b2 := by
  funext i
  obtain ⟨p, q, rfl⟩ : ∃ (p : Fin 10000) (q : Fin 128), i = ix2 p q := ⟨i 0, i 1, eq_ix2 i⟩
  rw [Cert.Spec.G_ix2]
  unfold res Cert.Spec.out Host.tanh
  rw [Ideal.hostUnary_tanh_def, addf_apply, biasRows_apply,
    Cert.Lib.PlainDot.dotGeneral_apply dot_S10000x24_S24x128_S10000x128_1_0_0_1_n_n rfl]
  refine congrArg (fun s => Ideal.tanh (s + b2 (ix1 q))) (Finset.sum_congr rfl fun k _ => ?_)
  rw [act_apply, pre_apply]

/-- At the ideal values, on every device, from any memory with zero counters: every weakly fair execution of
    @main terminates with the result buffer at the specification's function of the argument buffers' launch
    contents, and the six arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v10)
        = Cert.Spec.G (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run (defs (F := Ideal)) _ _).mono (fun _ h c => ⟨(h c).1.trans (result_eq _ _ _ _ _ _), (h c).2⟩)
    (RefRun.run (F := Ideal) m ρ)

end Cert.ReferenceIdeal.RefValue

end
-- ==== Proof.lean ====
/-
  A graph-convolution layer, out = tanh (leaky (adj · (x · W1) + b1) · W2 + b2), as a tiled kernel and as plain
  array code: the two compute the same extended reals.

  The kernel walks the 10000 rows of adj in 25 stripes of 400. At the first stripe it forms x · W1 once and keeps it
  in a scratch that outlives the stripe; at every stripe it multiplies the stripe's two 200-row halves of adj
  (two windows on the one array) against the kept product, adds b1, applies the leaky unit, multiplies by W2,
  adds b2 and takes tanh, writing 400 rows of the result. The reference does the same on whole arrays. Both
  group their sums alike — first over the 128 features, then over the 10000 neighbours, then over the 24 hidden
  units — so entry (i, j) of either is one and the same nested sum, and no law that could fail at an infinity is
  used: the precondition (finite inputs) is never opened. The one textual difference is the leaky unit's test,
  h > 0 in the kernel and h ≥ 0 in the reference, which can only disagree at h = 0, where the two branches are
  both 0.

  Frames. Each program runs to the end without a fault and leaves its six arguments as they were: the kernel
  because four of them are arrays of input windows, which are never written back, and the two bias vectors are
  only read by the reshapes before the launch; the reference because it writes only its own intermediate
  buffers. The kernel's frame is proved once for any float instance and used at the word level and at the
  extended reals. Nothing was rewritten between the word-level kernel and its idealization, so that conjunct
  holds trivially.
-/
import proofs.«168579_g5626407157816_cont_9to1c4b_88_12_alg».proof.Defs
import proofs.«168579_g5626407157816_cont_9to1c4b_88_12_alg».proof.Proof.Gen.Kernel
import proofs.«168579_g5626407157816_cont_9to1c4b_88_12_alg».proof.Proof.Gen.KernelIdeal
import proofs.«168579_g5626407157816_cont_9to1c4b_88_12_alg».proof.Proof.Gen.ReferenceIdeal
import proofs.«168579_g5626407157816_cont_9to1c4b_88_12_alg».proof.Proof.Gen.Pre_finite_inputs
import proofs.«168579_g5626407157816_cont_9to1c4b_88_12_alg».proof.Proof.BitsFrame
import proofs.«168579_g5626407157816_cont_9to1c4b_88_12_alg».proof.Proof.BitsSplit
import proofs.«168579_g5626407157816_cont_9to1c4b_88_12_alg».proof.Proof.KernFrame
import proofs.«168579_g5626407157816_cont_9to1c4b_88_12_alg».proof.Proof.KernSplit
import proofs.«168579_g5626407157816_cont_9to1c4b_88_12_alg».proof.Proof.KernValue
import proofs.«168579_g5626407157816_cont_9to1c4b_88_12_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_k : Cert.frame_Kernel := fun m ρ _ =>
  Cert.Kernel.Hand.frame m ρ (fun c => Cert.Kernel.Hand.arrays_of_arrBufs m c (Cert.Kernel.Hand.dats m 0 c) (Cert.Kernel.Hand.A_eq m c) rfl rfl rfl rfl rfl rfl rfl)

/-- So does the kernel read on the extended reals. -/
theorem frame_ki : Cert.frame_KernelIdeal := fun m ρ _ =>
  Cert.KernelIdeal.Hand.frame m ρ (fun c => Cert.KernelIdeal.Hand.arrays_of_arrBufs m c (Cert.KernelIdeal.Hand.dats m 0 c) (Cert.KernelIdeal.Hand.A_eq m c) rfl rfl rfl rfl rfl rfl rfl)

/-- The reference runs and keeps its arguments: its run, with the result dropped. -/
theorem frame_ri : Cert.frame_ReferenceIdeal := fun m ρ _ =>
  (θ_run Cert.ReferenceIdeal.defs _ _).mono (fun _ h c => (h c).2) (Cert.ReferenceIdeal.RefValue.run m ρ)

/-- The idealization rewrote nothing. -/
theorem preserves : Cert.preserves_Kernel_KernelIdeal := trivial

/-- Both programs end with the layer's result: the kernel's output array, stripe by stripe, and the reference's
    last buffer are the one function of the six arguments, on which the two memories agree. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.HandValue.final7 m c), (h c).2⟩)
      (Cert.KernelIdeal.Hand.run_out m ρ (fun c => Cert.KernelIdeal.Hand.arrays_of_arrBufs m c (Cert.KernelIdeal.Hand.dats m 0 c) (Cert.KernelIdeal.Hand.A_eq m c) rfl rfl rfl rfl rfl rfl rfl))
  · refine (θ_run Cert.ReferenceIdeal.defs _ _).mono (fun _ h c => ⟨(h c).1.trans ?_, (h c).2⟩)
      (Cert.ReferenceIdeal.RefValue.run m' ρ')
    rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
